-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x4 : Shape := ⟨3, ![40000, 32, 4]⟩
abbrev S40000x3 : Shape := ⟨2, ![40000, 3]⟩
abbrev S40000 : Shape := ⟨1, ![40000]⟩
abbrev S64x9 : Shape := ⟨2, ![64, 9]⟩
abbrev S64 : Shape := ⟨1, ![64]⟩
abbrev S_ : Shape := ⟨0, ![]⟩

class Facts : Prop where
  bcast_S_S40000x32x4 : S_.BroadcastsInDim S40000x32x4 (![] : Fin 0 → Fin S40000x32x4.rank)
  reducesTo_S40000x32x4_S_d0_1_2 : S40000x32x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg7 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S40000x32x4 .f32) (main_arg1 : IVec S40000x3 32) (main_arg2 : IVec S40000 32) (main_arg3 : FVec F S64x9 .f32) (main_arg4 : FVec F S64 .f32) (main_arg5 : FVec F S64 .f32) (main_arg6 : FVec F S64 .f32) (main_arg7 : FVec F S64 .f32) : IVec S_ 1 :=
  let main_v0 : FVec F S40000x32x4 .f32 := Host.absf main_arg0
  let main_cst : FVec F S_ .f32 := constant S_ .f32 0x7F800000#32
  let main_v1 : FVec F S40000x32x4 .f32 := broadcastInDim S40000x32x4 ![] bcast_S_S40000x32x4 main_cst
  let main_v2 : IVec S40000x32x4 1 := cmpf .olt main_v0 main_v1
  let main_c : IVec S_ 1 := constantI S_ 1 1#1
  let main_v3 : IVec S_ 1 := (fun x v => Host.reduce IntOp.andi x v reducesTo_S40000x32x4_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S40000x32x4 : Shape := ⟨3, ![40000, 32, 4]⟩
abbrev S40000x3 : Shape := ⟨2, ![40000, 3]⟩
abbrev S40000 : Shape := ⟨1, ![40000]⟩
abbrev S64x9 : Shape := ⟨2, ![64, 9]⟩
abbrev S64 : Shape := ⟨1, ![64]⟩
abbrev S40000x1 : Shape := ⟨2, ![40000, 1]⟩
abbrev S_ : Shape := ⟨0, ![]⟩
abbrev S1x64 : Shape := ⟨2, ![1, 64]⟩
abbrev S9x64 : Shape := ⟨2, ![9, 64]⟩
abbrev S40000x64 : Shape := ⟨2, ![40000, 64]⟩
abbrev S200x32x4 : Shape := ⟨3, ![200, 32, 4]⟩
abbrev S200x1 : Shape := ⟨2, ![200, 1]⟩
abbrev S200x64 : Shape := ⟨2, ![200, 64]⟩
abbrev S200x32x3 : Shape := ⟨3, ![200, 32, 3]⟩
abbrev S200x1x1 : Shape := ⟨3, ![200, 1, 1]⟩
abbrev S200x3 : Shape := ⟨2, ![200, 3]⟩
abbrev S200x1x3 : Shape := ⟨3, ![200, 1, 3]⟩
abbrev S200x32x1 : Shape := ⟨3, ![200, 32, 1]⟩
abbrev S200x32x9 : Shape := ⟨3, ![200, 32, 9]⟩
abbrev S1x32 : Shape := ⟨2, ![1, 32]⟩
abbrev S200x32 : Shape := ⟨2, ![200, 32]⟩
abbrev S200x32x64 : Shape := ⟨3, ![200, 32, 64]⟩
abbrev S1x1x64 : Shape := ⟨3, ![1, 1, 64]⟩
abbrev S857088x64 : Shape := ⟨2, ![857088, 64]⟩
abbrev S4x432x496x64 : Shape := ⟨4, ![4, 432, 496, 64]⟩
abbrev S4x64x496x432 : Shape := ⟨4, ![4, 64, 496, 432]⟩

abbrev nBuf : Space → Nat
  | .hbm => 68
  | .vmem => 13
  | .smem => 0
  | _ => 0

abbrev bufTy : (tb : Table) → Fin (tcTables nBuf tb) → BufTy
  | .hbm, ⟨0, _⟩ => ⟨S40000x32x4, .f32⟩
  | .hbm, ⟨1, _⟩ => ⟨S40000x3, .i32⟩
  | .hbm, ⟨2, _⟩ => ⟨S40000, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S40000x1, .i32⟩
  | .hbm, ⟨9, _⟩ => ⟨S40000, .i32⟩
  | .hbm, ⟨10, _⟩ => ⟨S40000, .f32⟩
  | .hbm, ⟨11, _⟩ => ⟨S_, .f32⟩
  | .hbm, ⟨12, _⟩ => ⟨S40000, .f32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S40000, .f32⟩
  | .hbm, ⟨17, _⟩ => ⟨S40000x1, .f32⟩
  | .hbm, ⟨18, _⟩ => ⟨S40000x1, .i32⟩
  | .hbm, ⟨19, _⟩ => ⟨S40000, .i32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000x1, .f32⟩
  | .hbm, ⟨28, _⟩ => ⟨S40000, .f32⟩
  | .hbm, ⟨29, _⟩ => ⟨S40000x1, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S9x64, .f32⟩
  | .hbm, ⟨40, _⟩ => ⟨S40000x64, .f32⟩
  | .hbm, ⟨41, _⟩ => ⟨S40000x1, .i32⟩
  | .hbm, ⟨42, _⟩ => ⟨S40000, .i32⟩
  | .hbm, ⟨43, _⟩ => ⟨S_, .i32⟩
  | .hbm, ⟨44, _⟩ => ⟨S40000, .i32⟩
  | .hbm, ⟨45, _⟩ => ⟨S40000, .i32⟩
  | .hbm, ⟨46, _⟩ => ⟨S40000x1, .i32⟩
  | .hbm, ⟨47, _⟩ => ⟨S40000, .i32⟩
  | .hbm, ⟨48, _⟩ => ⟨S40000, .i32⟩
  | .hbm, ⟨49, _⟩ => ⟨S_, .i32⟩
  | .hbm, ⟨50, _⟩ => ⟨S40000, .i32⟩
  | .hbm, ⟨51, _⟩ => ⟨S40000, .i32⟩
  | .hbm, ⟨52, _⟩ => ⟨S40000x1, .i32⟩
  | .hbm, ⟨53, _⟩ => ⟨S40000, .i32⟩
  | .hbm, ⟨54, _⟩ => ⟨S40000, .i32⟩
  | .hbm, ⟨55, _⟩ => ⟨S_, .f32⟩
  | .hbm, ⟨56, _⟩ => ⟨S857088x64, .f32⟩
  | .hbm, ⟨57, _⟩ => ⟨S_, .i32⟩
  | .hbm, ⟨58, _⟩ => ⟨S40000, .i32⟩
  | .hbm, ⟨59, _⟩ => ⟨S40000, .i1⟩
  | .hbm, ⟨60, _⟩ => ⟨S_, .i32⟩
  | .hbm, ⟨61, _⟩ => ⟨S40000, .i32⟩
  | .hbm, ⟨62, _⟩ => ⟨S40000, .i32⟩
  | .hbm, ⟨63, _⟩ => ⟨S40000, .i32⟩
  | .hbm, ⟨64, _⟩ => ⟨S40000x1, .i32⟩
  | .hbm, ⟨65, _⟩ => ⟨S857088x64, .f32⟩
  | .hbm, ⟨66, _⟩ => ⟨S4x432x496x64, .f32⟩
  | .hbm, ⟨67, _⟩ => ⟨S4x64x496x432, .f32⟩
  | .local _ .vmem, ⟨0, _⟩ => ⟨S200x32x4, .f32⟩
  | .local _ .vmem, ⟨1, _⟩ => ⟨S200x32x4, .f32⟩
  | .local _ .vmem, ⟨2, _⟩ => ⟨S200x1, .f32⟩
  | .local _ .vmem, ⟨3, _⟩ => ⟨S200x1, .f32⟩
  | .local _ .vmem, ⟨4, _⟩ => ⟨S200x1, .f32⟩
  | .local _ .vmem, ⟨5, _⟩ => ⟨S200x1, .f32⟩
  | .local _ .vmem, ⟨6, _⟩ => ⟨S200x1, .f32⟩
  | .local _ .vmem, ⟨7, _⟩ => ⟨S200x1, .f32⟩
  | .local _ .vmem, ⟨8, _⟩ => ⟨S9x64, .f32⟩
  | .local _ .vmem, ⟨9, _⟩ => ⟨S1x64, .f32⟩
  | .local _ .vmem, ⟨10, _⟩ => ⟨S1x64, .f32⟩
  | .local _ .vmem, ⟨11, _⟩ => ⟨S200x64, .f32⟩
  | .local _ .vmem, ⟨12, _⟩ => ⟨S200x64, .f32⟩
  | _, _ => ⟨S40000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S40000x3_S40000x1_0_1 : S40000x3.Slices ![0, 1] S40000x1
  shapeCasts_S40000x1_S40000 : S40000x1.ShapeCasts S40000
  bcast_S_S40000 : S_.BroadcastsInDim S40000 (![] : Fin 0 → Fin S40000.rank)
  shapeCasts_S40000_S40000x1 : S40000.ShapeCasts S40000x1
  slices_S40000x3_S40000x1_0_2 : S40000x3.Slices ![0, 2] S40000x1
  bcast_S_S64 : S_.BroadcastsInDim S64 (![] : Fin 0 → Fin S64.rank)
  shapeCasts_S64_S1x64 : S64.ShapeCasts S1x64
  transposes_S64x9_S9x64_1_0 : S64x9.Transposes [1, 0] S9x64
  inb_S200x32x4_S200x32x4_0_0_0 : ∀ a, (![0, 0, 0] : Fin 3 → Nat) a + S200x32x4.size a ≤ S200x32x4.size a
  h_S200x32x4 : 0 < S200x32x4.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  slices_S200x32x4_o0_0_0_S200x32x3 : S200x32x4.Slices ![0, 0, 0] S200x32x3
  shapeCasts_S200x1_S200x1x1 : S200x1.ShapeCasts S200x1x1
  reduces_S200x32x3_S200x3 : S200x32x3.Reduces [1] S200x3
  shapeCasts_S200x3_S200x1x3 : S200x3.ShapeCasts S200x1x3
  broadcasts_S200x1x1_S200x1x3 : S200x1x1.Broadcasts S200x1x3
  broadcasts_S200x1x3_S200x32x3 : S200x1x3.Broadcasts S200x32x3
  slices_S200x32x4_o0_0_0_S200x32x1 : S200x32x4.Slices ![0, 0, 0] S200x32x1
  slices_S200x32x4_o0_0_1_S200x32x1 : S200x32x4.Slices ![0, 0, 1] S200x32x1
  broadcasts_S200x1x1_S200x32x1 : S200x1x1.Broadcasts S200x32x1
  concatenates_S200x32x4_S200x32x3_S200x32x1_S200x32x1_S200x32x9_d2 : Shape.Concatenates [S200x32x4, S200x32x3, S200x32x1, S200x32x1] S200x32x9 2
  iota_S1x32_d1_w32 : S1x32.Iotas .tc 32 [1]
  broadcasts_S1x32_S200x32 : S1x32.Broadcasts S200x32
  broadcasts_S200x1_S200x32 : S200x1.Broadcasts S200x32
  natLt_1_32 : 1 < 32
  shapeCasts_S200x32_S200x32x1 : S200x32.ShapeCasts S200x32x1
  broadcasts_S200x32x1_S200x32x9 : S200x32x1.Broadcasts S200x32x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  slices_S200x32x9_o0_0_0_S200x32x1 : S200x32x9.Slices ![0, 0, 0] S200x32x1
  slices_S9x64_o0_0_S1x64 : S9x64.Slices ![0, 0] S1x64
  shapeCasts_S1x64_S1x1x64 : S1x64.ShapeCasts S1x1x64
  broadcasts_S200x32x1_S200x32x64 : S200x32x1.Broadcasts S200x32x64
  broadcasts_S1x1x64_S200x32x64 : S1x1x64.Broadcasts S200x32x64
  slices_S200x32x9_o0_0_1_S200x32x1 : S200x32x9.Slices ![0, 0, 1] S200x32x1
  slices_S9x64_o1_0_S1x64 : S9x64.Slices ![1, 0] S1x64
  slices_S200x32x9_o0_0_2_S200x32x1 : S200x32x9.Slices ![0, 0, 2] S200x32x1
  slices_S9x64_o2_0_S1x64 : S9x64.Slices ![2, 0] S1x64
  slices_S200x32x9_o0_0_3_S200x32x1 : S200x32x9.Slices ![0, 0, 3] S200x32x1
  slices_S9x64_o3_0_S1x64 : S9x64.Slices ![3, 0] S1x64
  slices_S200x32x9_o0_0_4_S200x32x1 : S200x32x9.Slices ![0, 0, 4] S200x32x1
  slices_S9x64_o4_0_S1x64 : S9x64.Slices ![4, 0] S1x64
  slices_S200x32x9_o0_0_5_S200x32x1 : S200x32x9.Slices ![0, 0, 5] S200x32x1
  slices_S9x64_o5_0_S1x64 : S9x64.Slices ![5, 0] S1x64
  slices_S200x32x9_o0_0_6_S200x32x1 : S200x32x9.Slices ![0, 0, 6] S200x32x1
  slices_S9x64_o6_0_S1x64 : S9x64.Slices ![6, 0] S1x64
  slices_S200x32x9_o0_0_7_S200x32x1 : S200x32x9.Slices ![0, 0, 7] S200x32x1
  slices_S9x64_o7_0_S1x64 : S9x64.Slices ![7, 0] S1x64
  slices_S200x32x9_o0_0_8_S200x32x1 : S200x32x9.Slices ![0, 0, 8] S200x32x1
  slices_S9x64_o8_0_S1x64 : S9x64.Slices ![8, 0] S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S200x32x64_S200x64 : S200x32x64.Reduces [1] S200x64
  inb_S200x64_S200x64_0_0 : ∀ a, (![0, 0] : Fin 2 → Nat) a + S200x64.size a ≤ S200x64.size a
  h_S200x64 : 0 < S200x64.numel
  slices_S40000x3_S40000x1_0_0 : S40000x3.Slices ![0, 0] S40000x1
  bcast_S_S857088x64 : S_.BroadcastsInDim S857088x64 (![] : Fin 0 → Fin S857088x64.rank)
  bcast_S40000_S40000x1_0 : S40000.BroadcastsInDim S40000x1 (![0] : Fin 1 → Fin S40000x1.rank)
  shapeCasts_S857088x64_S4x432x496x64 : S857088x64.ShapeCasts S4x432x496x64
  transposes_S4x432x496x64_S4x64x496x432_0_3_2_1 : S4x432x496x64.Transposes [0, 3, 2, 1] S4x64x496x432
  scatter_S857088x64_S40000x1_S40000x64_1_0_0_1_wf : ScatterDims.WF S857088x64 S40000x1 S40000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x4.size a ≤ S40000x32x4.size a
  hwx0_0 : ∀ i : grid0.Coords, EltTy.bits .f32 = 32 ∨ (Rect.block (s := S40000x32x4) S200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S40000x1.size a
  hwx0_1 : ∀ i : grid0.Coords, EltTy.bits .f32 = 32 ∨ (Rect.block (s := S40000x1) S200x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S40000x1.size a
  hwx0_2 : ∀ i : grid0.Coords, EltTy.bits .f32 = 32 ∨ (Rect.block (s := S40000x1) S200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S40000x1.size a
  hwx0_3 : ∀ i : grid0.Coords, EltTy.bits .f32 = 32 ∨ (Rect.block (s := S40000x1) S200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x64.size a ≤ S9x64.size a
  hwx0_4 : ∀ i : grid0.Coords, EltTy.bits .f32 = 32 ∨ (Rect.block (s := S9x64) S9x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x64.size a ≤ S40000x64.size a
  hwx0_7 : ∀ i : grid0.Coords, EltTy.bits .f32 = 32 ∨ (Rect.block (s := S40000x64) S200x64.size (cc0_transform_7 i) (hinb0_7 i)).WholeWords (EltTy.packing .f32)

variable [Facts₀]

def scatter_S857088x64_S40000x1_S40000x64_1_0_0_1 : ScatterDims S857088x64 S40000x1 S40000x64 where
  updateWindowDims := [1]
  insertedWindowDims := [0]
  scatterDimsToOperandDims := [0]
  indexVectorDim := 1
  wf := scatter_S857088x64_S40000x1_S40000x64_1_0_0_1_wf

abbrev win0_0 : Pipeline.Window sig grid0 :=
  Pipeline.Window.ofSpec (Memref.whole main_arg0) S200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S9x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S200x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S40000x32x4 : Shape := ⟨3, ![40000, 32, 4]⟩
abbrev S40000x3 : Shape := ⟨2, ![40000, 3]⟩
abbrev S40000 : Shape := ⟨1, ![40000]⟩
abbrev S64x9 : Shape := ⟨2, ![64, 9]⟩
abbrev S64 : Shape := ⟨1, ![64]⟩
abbrev S40000x32x3 : Shape := ⟨3, ![40000, 32, 3]⟩
abbrev S_ : Shape := ⟨0, ![]⟩
abbrev S40000x1x3 : Shape := ⟨3, ![40000, 1, 3]⟩
abbrev S40000x1x1 : Shape := ⟨3, ![40000, 1, 1]⟩
abbrev S40000x1 : Shape := ⟨2, ![40000, 1]⟩
abbrev S40000x32x1 : Shape := ⟨3, ![40000, 32, 1]⟩
abbrev S40000x32x9 : Shape := ⟨3, ![40000, 32, 9]⟩
abbrev S32 : Shape := ⟨1, ![32]⟩
abbrev S1x32 : Shape := ⟨2, ![1, 32]⟩
abbrev S40000x32 : Shape := ⟨2, ![40000, 32]⟩
abbrev S40000x32x64 : Shape := ⟨3, ![40000, 32, 64]⟩
abbrev S1x1x64 : Shape := ⟨3, ![1, 1, 64]⟩
abbrev S40000x64 : Shape := ⟨2, ![40000, 64]⟩
abbrev S857088x64 : Shape := ⟨2, ![857088, 64]⟩
abbrev S4x432x496x64 : Shape := ⟨4, ![4, 432, 496, 64]⟩
abbrev S4x64x496x432 : Shape := ⟨4, ![4, 64, 496, 432]⟩

abbrev nBuf : Space → Nat
  | .hbm => 101
  | .vmem => 0
  | .smem => 0
  | _ => 0

abbrev bufTy : (tb : Table) → Fin (tcTables nBuf tb) → BufTy
  | .hbm, ⟨0, _⟩ => ⟨S40000x32x4, .f32⟩
  | .hbm, ⟨1, _⟩ => ⟨S40000x3, .i32⟩
  | .hbm, ⟨2, _⟩ => ⟨S40000, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S40000, .f32⟩
  | .hbm, ⟨9, _⟩ => ⟨S40000x32x3, .f32⟩
  | .hbm, ⟨10, _⟩ => ⟨S_, .f32⟩
  | .hbm, ⟨11, _⟩ => ⟨S40000x3, .f32⟩
  | .hbm, ⟨12, _⟩ => ⟨S40000x1x3, .f32⟩
  | .hbm, ⟨13, _⟩ => ⟨S40000x1x1, .f32⟩
  | .hbm, ⟨14, _⟩ => ⟨S40000x1x3, .f32⟩
  | .hbm, ⟨15, _⟩ => ⟨S40000x1x3, .f32⟩
  | .hbm, ⟨16, _⟩ => ⟨S40000x32x3, .f32⟩
  | .hbm, ⟨17, _⟩ => ⟨S40000x32x3, .f32⟩
  | .hbm, ⟨18, _⟩ => ⟨S40000x32x3, .f32⟩
  | .hbm, ⟨19, _⟩ => ⟨S40000x1, .i32⟩
  | .hbm, ⟨20, _⟩ => ⟨S40000x1x1, .i32⟩
  | .hbm, ⟨21, _⟩ => ⟨S40000x1x1, .f32⟩
  | .hbm, ⟨22, _⟩ => ⟨S_, .f32⟩
  | .hbm, ⟨23, _⟩ => ⟨S40000x1x1, .f32⟩
  | .hbm, ⟨24, _⟩ => ⟨S40000x1x1, .f32⟩
  | .hbm, ⟨25, _⟩ => ⟨S_, .f32⟩
  | .hbm, ⟨26, _⟩ => ⟨S40000x1x1, .f32⟩
  | .hbm, ⟨27, _⟩ => ⟨S40000x1x1, .f32⟩
  | .hbm, ⟨28, _⟩ => ⟨S40000x1, .i32⟩
  | .hbm, ⟨29, _⟩ => ⟨S40000x1x1, .i32⟩
  | .hbm, ⟨30, _⟩ => ⟨S40000x1x1, .f32⟩
  | .hbm, ⟨31, _⟩ => ⟨S_, .f32⟩
  | .hbm, ⟨32, _⟩ => ⟨S40000x1x1, .f32⟩
  | .hbm, ⟨33, _⟩ => ⟨S40000x1x1, .f32⟩
  | .hbm, ⟨34, _⟩ => ⟨S_, .f32⟩
  | .hbm, ⟨35, _⟩ => ⟨S40000x1x1, .f32⟩
  | .hbm, ⟨36, _⟩ => ⟨S40000x1x1, .f32⟩
  | .hbm, ⟨37, _⟩ => ⟨S40000x32x1, .f32⟩
  | .hbm, ⟨38, _⟩ => ⟨S40000x32x1, .f32⟩
  | .hbm, ⟨39, _⟩ => ⟨S40000x32x1, .f32⟩
  | .hbm, ⟨40, _⟩ => ⟨S40000x32x1, .f32⟩
  | .hbm, ⟨41, _⟩ => ⟨S40000x32x1, .f32⟩
  | .hbm, ⟨42, _⟩ => ⟨S40000x32x1, .f32⟩
  | .hbm, ⟨43, _⟩ => ⟨S40000x32x9, .f32⟩
  | .hbm, ⟨44, _⟩ => ⟨S32, .i32⟩
  | .hbm, ⟨45, _⟩ => ⟨S1x32, .i32⟩
  | .hbm, ⟨46, _⟩ => ⟨S40000x1, .i32⟩
  | .hbm, ⟨47, _⟩ => ⟨S40000x32, .i32⟩
  | .hbm, ⟨48, _⟩ => ⟨S40000x32, .i32⟩
  | .hbm, ⟨49, _⟩ => ⟨S40000x32, .i1⟩
  | .hbm, ⟨50, _⟩ => ⟨S40000x32, .f32⟩
  | .hbm, ⟨51, _⟩ => ⟨S40000x32x1, .f32⟩
  | .hbm, ⟨52, _⟩ => ⟨S40000x32x9, .f32⟩
  | .hbm, ⟨53, _⟩ => ⟨S40000x32x9, .f32⟩
  | .hbm, ⟨54, _⟩ => ⟨S40000x32x64, .f32⟩
  | .hbm, ⟨55, _⟩ => ⟨S1x1x64, .f32⟩
  | .hbm, ⟨56, _⟩ => ⟨S40000x32x64, .f32⟩
  | .hbm, ⟨57, _⟩ => ⟨S40000x32x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S1x1x64, .f32⟩
  | .hbm, ⟨64, _⟩ => ⟨S40000x32x64, .f32⟩
  | .hbm, ⟨65, _⟩ => ⟨S40000x32x64, .f32⟩
  | .hbm, ⟨66, _⟩ => ⟨S1x1x64, .f32⟩
  | .hbm, ⟨67, _⟩ => ⟨S40000x32x64, .f32⟩
  | .hbm, ⟨68, _⟩ => ⟨S40000x32x64, .f32⟩
  | .hbm, ⟨69, _⟩ => ⟨S_, .f32⟩
  | .hbm, ⟨70, _⟩ => ⟨S40000x32x64, .f32⟩
  | .hbm, ⟨71, _⟩ => ⟨S40000x32x64, .f32⟩
  | .hbm, ⟨72, _⟩ => ⟨S_, .f32⟩
  | .hbm, ⟨73, _⟩ => ⟨S40000x64, .f32⟩
  | .hbm, ⟨74, _⟩ => ⟨S40000x1, .i32⟩
  | .hbm, ⟨75, _⟩ => ⟨S40000, .i32⟩
  | .hbm, ⟨76, _⟩ => ⟨S_, .i32⟩
  | .hbm, ⟨77, _⟩ => ⟨S40000, .i32⟩
  | .hbm, ⟨78, _⟩ => ⟨S40000, .i32⟩
  | .hbm, ⟨79, _⟩ => ⟨S40000x1, .i32⟩
  | .hbm, ⟨80, _⟩ => ⟨S40000, .i32⟩
  | .hbm, ⟨81, _⟩ => ⟨S40000, .i32⟩
  | .hbm, ⟨82, _⟩ => ⟨S_, .i32⟩
  | .hbm, ⟨83, _⟩ => ⟨S40000, .i32⟩
  | .hbm, ⟨84, _⟩ => ⟨S40000, .i32⟩
  | .hbm, ⟨85, _⟩ => ⟨S40000x1, .i32⟩
  | .hbm, ⟨86, _⟩ => ⟨S40000, .i32⟩
  | .hbm, ⟨87, _⟩ => ⟨S40000, .i32⟩
  | .hbm, ⟨88, _⟩ => ⟨S_, .f32⟩
  | .hbm, ⟨89, _⟩ => ⟨S857088x64, .f32⟩
  | .hbm, ⟨90, _⟩ => ⟨S_, .i32⟩
  | .hbm, ⟨91, _⟩ => ⟨S40000, .i32⟩
  | .hbm, ⟨92, _⟩ => ⟨S40000, .i1⟩
  | .hbm, ⟨93, _⟩ => ⟨S_, .i32⟩
  | .hbm, ⟨94, _⟩ => ⟨S40000, .i32⟩
  | .hbm, ⟨95, _⟩ => ⟨S40000, .i32⟩
  | .hbm, ⟨96, _⟩ => ⟨S40000, .i32⟩
  | .hbm, ⟨97, _⟩ => ⟨S40000x1, .i32⟩
  | .hbm, ⟨98, _⟩ => ⟨S857088x64, .f32⟩
  | .hbm, ⟨99, _⟩ => ⟨S4x432x496x64, .f32⟩
  | .hbm, ⟨100, _⟩ => ⟨S4x64x496x432, .f32⟩
  | _, _ => ⟨S40000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call0_cst : Ref sig .tc := ⟨.hbm, 69, rfl⟩
abbrev main_call0_v0 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_7 : Ref sig .tc := ⟨.hbm, 88, rfl⟩
abbrev main_v69 : Ref sig .tc := ⟨.hbm, 89, rfl⟩
abbrev main_c_8 : Ref sig .tc := ⟨.hbm, 90, rfl⟩
abbrev main_v70 : Ref sig .tc := ⟨.hbm, 91, rfl⟩
abbrev main_v71 : Ref sig .tc := ⟨.hbm, 92, rfl⟩
abbrev main_c_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  slices_S40000x32x4_S40000x32x3_0_0_0 : S40000x32x4.Slices ![0, 0, 0] S40000x32x3
  reducesTo_S40000x32x3_S40000x3_d1 : S40000x32x3.ReducesTo [1] S40000x3
  h_S_ : 0 < S_.numel
  bcast_S40000x3_S40000x1x3_0_2 : S40000x3.BroadcastsInDim S40000x1x3 (![0, 2] : Fin 2 → Fin S40000x1x3.rank)
  bcast_S40000_S40000x1x1_0 : S40000.BroadcastsInDim S40000x1x1 (![0] : Fin 1 → Fin S40000x1x1.rank)
  bcast_S40000x1x1_S40000x1x3_0_1_2 : S40000x1x1.BroadcastsInDim S40000x1x3 (![0, 1, 2] : Fin 3 → Fin S40000x1x3.rank)
  bcast_S40000x1x3_S40000x32x3_0_1_2 : S40000x1x3.BroadcastsInDim S40000x32x3 (![0, 1, 2] : Fin 3 → Fin S40000x32x3.rank)
  slices_S40000x3_S40000x1_0_1 : S40000x3.Slices ![0, 1] S40000x1
  bcast_S40000x1_S40000x1x1_0_2 : S40000x1.BroadcastsInDim S40000x1x1 (![0, 2] : Fin 2 → Fin S40000x1x1.rank)
  bcast_S_S40000x1x1 : S_.BroadcastsInDim S40000x1x1 (![] : Fin 0 → Fin S40000x1x1.rank)
  slices_S40000x3_S40000x1_0_2 : S40000x3.Slices ![0, 2] S40000x1
  slices_S40000x32x4_S40000x32x1_0_0_0 : S40000x32x4.Slices ![0, 0, 0] S40000x32x1
  bcast_S40000x1x1_S40000x32x1_0_1_2 : S40000x1x1.BroadcastsInDim S40000x32x1 (![0, 1, 2] : Fin 3 → Fin S40000x32x1.rank)
  slices_S40000x32x4_S40000x32x1_0_0_1 : S40000x32x4.Slices ![0, 0, 1] S40000x32x1
  concatenates_S40000x32x4_S40000x32x3_S40000x32x1_S40000x32x1_S40000x32x9_d2 : Shape.Concatenates [S40000x32x4, S40000x32x3, S40000x32x1, S40000x32x1] S40000x32x9 2
  bcast_S32_S1x32_1 : S32.BroadcastsInDim S1x32 (![1] : Fin 1 → Fin S1x32.rank)
  bcast_S40000_S40000x1_0 : S40000.BroadcastsInDim S40000x1 (![0] : Fin 1 → Fin S40000x1.rank)
  bcast_S1x32_S40000x32_0_1 : S1x32.BroadcastsInDim S40000x32 (![0, 1] : Fin 2 → Fin S40000x32.rank)
  bcast_S40000x1_S40000x32_0_1 : S40000x1.BroadcastsInDim S40000x32 (![0, 1] : Fin 2 → Fin S40000x32.rank)
  bcast_S40000x32_S40000x32x1_0_1 : S40000x32.BroadcastsInDim S40000x32x1 (![0, 1] : Fin 2 → Fin S40000x32x1.rank)
  bcast_S40000x32x1_S40000x32x9_0_1_2 : S40000x32x1.BroadcastsInDim S40000x32x9 (![0, 1, 2] : Fin 3 → Fin S40000x32x9.rank)
  bcast_S64_S1x1x64_2 : S64.BroadcastsInDim S1x1x64 (![2] : Fin 1 → Fin S1x1x64.rank)
  bcast_S1x1x64_S40000x32x64_0_1_2 : S1x1x64.BroadcastsInDim S40000x32x64 (![0, 1, 2] : Fin 3 → Fin S40000x32x64.rank)
  bcast_S_S64 : S_.BroadcastsInDim S64 (![] : Fin 0 → Fin S64.rank)
  bcast_S_S40000x32x64 : S_.BroadcastsInDim S40000x32x64 (![] : Fin 0 → Fin S40000x32x64.rank)
  reducesTo_S40000x32x64_S40000x64_d1 : S40000x32x64.ReducesTo [1] S40000x64
  slices_S40000x3_S40000x1_0_0 : S40000x3.Slices ![0, 0] S40000x1
  shapeCasts_S40000x1_S40000 : S40000x1.ShapeCasts S40000
  bcast_S_S40000 : S_.BroadcastsInDim S40000 (![] : Fin 0 → Fin S40000.rank)
  bcast_S_S857088x64 : S_.BroadcastsInDim S857088x64 (![] : Fin 0 → Fin S857088x64.rank)
  shapeCasts_S857088x64_S4x432x496x64 : S857088x64.ShapeCasts S4x432x496x64
  transposes_S4x432x496x64_S4x64x496x432_0_3_2_1 : S4x432x496x64.Transposes [0, 3, 2, 1] S4x64x496x432
  dot_S40000x32x9_S64x9_S40000x32x64_2_1_01_0_n_n_wf : DotDims.WF S40000x32x9 S64x9 S40000x32x64 [2] [1] [0, 1] [0] [] []
  scatter_S857088x64_S40000x1_S40000x64_1_0_0_1_wf : ScatterDims.WF S857088x64 S40000x1 S40000x64 [1] [0] [0] 1

variable [Facts₀]

def dot_S40000x32x9_S64x9_S40000x32x64_2_1_01_0_n_n : DotDims S40000x32x9 S64x9 S40000x32x64 where
  lhsContracting := [2]
  rhsContracting := [1]
  lhsNonContracting := [0, 1]
  rhsNonContracting := [0]
  lhsBatch := []
  rhsBatch := []
  wf := dot_S40000x32x9_S64x9_S40000x32x64_2_1_01_0_n_n_wf
def scatter_S857088x64_S40000x1_S40000x64_1_0_0_1 : ScatterDims S857088x64 S40000x1 S40000x64 where
  updateWindowDims := [1]
  insertedWindowDims := [0]
  scatterDimsToOperandDims := [0]
  indexVectorDim := 1
  wf := scatter_S857088x64_S40000x1_S40000x64_1_0_0_1_wf

class Facts : Prop extends Facts₀ where

variable [Facts]
-- ==== Proof.Tail.lean ====
/-
  The host operations after the region, as one function of the coordinates array and the pooled array.

  Each pillar has three integer coordinates (b, y, x). Its cell on the canvas is the linear index
  (b * 432 + y) * 496 + x, read modulo the canvas size 857088 when negative. The canvas starts at zero,
  every pillar's 64 pooled features overwrite the row of its cell, and the canvas is then viewed as
  4 x 432 x 496 x 64 and its axes reordered to 4 x 64 x 496 x 432.

  Both programs end with these operations: the kernel's program applies them to what its region wrote,
  the reference to its own pooled array. Both runs are stated here with the same function, which is
  never opened.
-/
import proofs.«180584_j4277787427173_2_alg».proof.Proof.Gen.KernelIdeal.Frame
import proofs.«180584_j4277787427173_2_alg».proof.Proof.Gen.ReferenceIdeal.Read
import Idealize.ShloMosaic.Lib.StableHlo.Run
import Idealize.ShloMosaic.Lib.Pipeline.Value

set_option maxRecDepth 16384

noncomputable section

namespace Cert.Pillar

open Idealize.ShloMosaic Idealize.ShloMosaic.TcCoe
open Idealize.SL.Sem

section Def
open Cert.KernelIdeal Cert.KernelIdeal.Gen

/-- The linear cell index of each pillar: (b * 432 + y) * 496 + x in 32-bit arithmetic. -/
def cell (coors : IVec S40000x3 32) : IVec S40000 32 :=
  addi (muli (addi (muli (shapeCast S40000 (extractStridedSlice S40000x1 ![0, 0] coors slices_S40000x3_S40000x1_0_0) shapeCasts_S40000x1_S40000)
                         (broadcastInDim S40000 ![] bcast_S_S40000 (constantI S_ 32 432#32)))
                   (shapeCast S40000 (extractStridedSlice S40000x1 ![0, 1] coors slices_S40000x3_S40000x1_0_1) shapeCasts_S40000x1_S40000))
             (broadcastInDim S40000 ![] bcast_S_S40000 (constantI S_ 32 496#32)))
       (shapeCast S40000 (extractStridedSlice S40000x1 ![0, 2] coors slices_S40000x3_S40000x1_0_2) shapeCasts_S40000x1_S40000)

/-- The tail as one function of the coordinates array and the pooled array. -/
def canvas (coors : IVec S40000x3 32) (pooled : FVec Ideal S40000x64 .f32) : FVec Ideal S4x64x496x432 .f32 :=
  transpose S4x64x496x432 [0, 3, 2, 1]
    (shapeCast S4x432x496x64
      (Host.scatter scatter_S857088x64_S40000x1_S40000x64_1_0_0_1 (fun _ b => b)
        (broadcastInDim S857088x64 ![] bcast_S_S857088x64 (constant (F := Ideal) S_ .f32 0x00000000#32))
        (broadcastInDim S40000x1 ![0] bcast_S40000_S40000x1_0
          (select (cmpi .slt (cell coors) (broadcastInDim S40000 ![] bcast_S_S40000 (constantI S_ 32 0#32)))
                  (addi (cell coors) (broadcastInDim S40000 ![] bcast_S_S40000 (constantI S_ 32 857088#32)))
                  (cell coors)))
        pooled)
      shapeCasts_S857088x64_S4x432x496x64)
    transposes_S4x432x496x64_S4x64x496x432_0_3_2_1

end Def

section Kernel
open Cert.KernelIdeal Cert.KernelIdeal.Gen

/-- What the operations after the region leave in the result buffer: the tail applied to the coordinates
    array as launched and to the output array the region wrote. -/
theorem tail_eq (m : (ℓ : Loc nD τ sig) → Buf (Elt Ideal) ℓ) (c : Dev nD) :
    Pipeline.afterTail₀ cfgs (dats m) 0 (V0 m) [hostOps1] c main_v49
      = canvas (m ((c.tc : Thread nD τ).loc main_arg1)) ((dats m 0 c).arrAt 7 cfg0.N) := by
  have h27 : Pipeline.withArrays (cfgs 0).spec c (V0 m c) (fun w => (dats m 0 c).arrAt w (cfgs 0).N) (Proc.devRef .tc main_v27)
      = (dats m 0 c).arrAt 7 cfg0.N :=
    Pipeline.withArrays_arr spec0 launch0.win.arr_inj c _ _ 7
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v49) = _
  after_results_simp
  rw [h1, h27]
  generalize (dats m 0 c).arrAt 7 cfg0.N = P
  generalize m ((c.tc : Thread nD τ).loc main_arg1) = X
  rfl

/-- The kernel's program runs, ends with the tail of the region's output array in its result buffer, and
    leaves its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
          = canvas (m ((c.tc : Thread nD τ).loc main_arg1)) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v49 (Pipeline.mem_restRefs_of main_v49 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Kernel

section Reference
open Cert.ReferenceIdeal Cert.ReferenceIdeal.Gen Cert.ReferenceIdeal.Read

/-- The reference's result is the same tail, applied to its coordinates argument and to its pooled array. -/
theorem reference_res (m' : (ℓ : Loc nD τ sig) → Buf (Elt Ideal) ℓ) (c : Dev nD) :
    Cert.ReferenceIdeal.Value.res_main_v78 m' c
      = canvas (m' ((c.tc : Thread nD τ).loc main_arg1))
          (val_main_v56 (F := Ideal) (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7))) := by
  rw [val_main_v78_eq]
  unfold val_main_v78 val_main_v77 val_main_v76
  generalize val_main_v56 (F := Ideal) (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7)) = P
  generalize m' ((c.tc : Thread nD τ).loc main_arg1) = X
  rfl

end Reference

end Cert.Pillar

end
-- ==== Proof.PreReal.lean ====
import proofs.«180584_j4277787427173_2_alg».proof.Proof.Gen.Pre_finite_inputs
import Idealize.ShloMosaic.Lib.ReduceAll
import Idealize.ShloMosaic.Lib.ValueIdx
import Idealize.ShloMosaic.PureOps.Ideal.Laws

/-!
From the printed precondition to real numbers.

The precondition is a conjunction of seven whole-array tests, each the `and` of an elementwise
comparison: six of them say that the absolute value of every entry of an argument array is
strictly below `+∞`, the seventh that every entry of the variance array is at least zero. An
extended real whose absolute value is below `⊤` is neither `⊤` nor `⊥`, so it is a real number.
Here this is read off for the four per-channel arrays of the batch normalisation (scale, shift,
mean, variance): each entry is a real, and the variance entries are nonnegative reals.
-/

namespace Cert.Pillar

open Idealize.ShloMosaic

/-- The scalar shape has one index. -/
instance : Subsingleton Cert.Pre_finite_inputs.S_.Idx := ⟨fun a b => funext fun d => d.elim0⟩

/-- The word of `+∞` denotes `⊤`. -/
theorem top_word : Ideal.ofBits .f32 0x7F800000#32 = (⊤ : EReal) := by
  simp [Ideal.ofBits, Ideal.ieee]

/-- A one-bit word made from a Boolean is `1` exactly when the Boolean is true. -/
theorem ofBool_eq_one {b : Bool} (h : BitVec.ofBool b = 1#1) : b = true := by
  cases b
  · exact absurd h (by decide)
  · rfl

/-- An extended real whose absolute value `max x (-x)` is strictly below `+∞` is a real number. -/
theorem real_of_abs_lt (x : EReal)
    (h : Ideal.cmp .olt (max x (-x)) (Ideal.ofBits .f32 0x7F800000#32) = 1#1) : ∃ r : ℝ, x = (r : EReal) := by
  rw [top_word] at h
  have h' : max x (-x) < ⊤ := of_decide_eq_true (ofBool_eq_one h)
  induction x using EReal.rec with
  | bot => simp at h'
  | coe r => exact ⟨r, rfl⟩
  | top => simp at h'

/-- A real number that compares `≥` to the zero word is nonnegative. -/
theorem nonneg_of_ge (r : ℝ)
    (h : Ideal.cmp .oge (r : EReal) (Ideal.ofBits .f32 0x00000000#32) = 1#1) : 0 ≤ r := by
  rw [Ideal.ofBits_zero_f32] at h
  have h' : (0 : EReal) ≤ (r : EReal) := of_decide_eq_true (ofBool_eq_one h)
  exact EReal.coe_nonneg.1 h'

/-- Under the precondition, at every channel `o` the scale, shift, mean and variance entries are real
    numbers, and the variance entry is nonnegative. -/
theorem bn_real (a0 : FVec Ideal Cert.Pre_finite_inputs.S40000x32x4 .f32) (a1 : IVec Cert.Pre_finite_inputs.S40000x3 32)
    (a2 : IVec Cert.Pre_finite_inputs.S40000 32) (a3 : FVec Ideal Cert.Pre_finite_inputs.S64x9 .f32)
    (a4 a5 a6 a7 : FVec Ideal Cert.Pre_finite_inputs.S64 .f32)
    (h : Cert.Pre_finite_inputs.fn (F := Ideal) a0 a1 a2 a3 a4 a5 a6 a7 = fun _ => 1#1) (o : Fin 64) :
    (∃ r : ℝ, a4 (ValueIdx.ix1 o) = (r : EReal)) ∧ (∃ r : ℝ, a5 (ValueIdx.ix1 o) = (r : EReal)) ∧
      (∃ r : ℝ, a6 (ValueIdx.ix1 o) = (r : EReal)) ∧ (∃ r : ℝ, a7 (ValueIdx.ix1 o) = (r : EReal) ∧ 0 ≤ r) := by
  have h0 := congrFun h ValueIdx.ix0
  dsimp only [Cert.Pre_finite_inputs.fn, Cert.Pre_finite_inputs.fn_part1] at h0
  -- the seven conjuncts, outermost first
  obtain ⟨h1, g7⟩ := IntOp.andi_eq_one.1 h0
  obtain ⟨h2, f7⟩ := IntOp.andi_eq_one.1 h1
  obtain ⟨h3, f6⟩ := IntOp.andi_eq_one.1 h2
  obtain ⟨h4, f5⟩ := IntOp.andi_eq_one.1 h3
  obtain ⟨-, f4⟩ := IntOp.andi_eq_one.1 h4
  -- each whole-array test at the channel `o`
  have e4 := Host.reduce_andi_all _ _ _ _ _ f4 (ValueIdx.ix1 o)
  have e5 := Host.reduce_andi_all _ _ _ _ _ f5 (ValueIdx.ix1 o)
  have e6 := Host.reduce_andi_all _ _ _ _ _ f6 (ValueIdx.ix1 o)
  have e7 := Host.reduce_andi_all _ _ _ _ _ f7 (ValueIdx.ix1 o)
  have d7 := Host.reduce_andi_all _ _ _ _ _ g7 (ValueIdx.ix1 o)
  refine ⟨real_of_abs_lt _ e4, real_of_abs_lt _ e5, real_of_abs_lt _ e6, ?_⟩
  obtain ⟨r, hr⟩ := real_of_abs_lt _ e7
  refine ⟨r, hr, nonneg_of_ge r ?_⟩
  rw [← hr]
  exact d7

end Cert.Pillar
-- ==== Proof.Blocks.lean ====
/-
  From blocks to arrays: how the grid cuts the arrays the region reads and writes.

  The grid has 200 points. At point t the region reads rows 200 t .. 200 t + 199 of the pillar array and
  of the three per-pillar columns, and all of the weight matrix and of the two rows of scale and shift;
  it writes rows 200 t .. 200 t + 199 of the pooled array. So row r of point t's block is pillar
  200 t + r, and a function of the pillar index that each block's rows agree with is the whole array
  once the region has finished: the 200 blocks of 200 rows tile the 40000 rows.
-/
import proofs.«180584_j4277787427173_2_alg».proof.Proof.Gen.KernelIdeal.Frame
import Idealize.ShloMosaic.Lib.Pipeline.Value
import Idealize.ShloMosaic.Lib.ValueIdx

set_option maxRecDepth 16384

noncomputable section

namespace Cert.Pillar

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- A grid point is below 200. -/
theorem point_lt (t : Fin cfg0.N) : t.val < 200 := by
  exact Nat.lt_of_lt_of_eq t.isLt N_0

/-- The pillar that row `r` of point `t`'s block is. -/
def grow (t : Fin cfg0.N) (r : Fin 200) : Fin 40000 :=
  ⟨200 * t.val + r.val, by have ht := point_lt t; have hr := r.isLt; omega⟩

theorem grow_val (t : Fin cfg0.N) (r : Fin 200) : (grow t r).val = 200 * t.val + r.val := rfl

/-- The printed index maps, decided over the grid: the four pillar-indexed inputs and the output are at block
    t along the pillar axis and block 0 along the others; the weights, the scale and the shift are at block 0. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row r of point t's block of the pillar array is pillar 200 t + r of the argument. -/
theorem blk_pillars (t : Fin cfg0.N) (r : Fin 200) (n : Fin 32) (k : Fin 4) :
    iblk m c 0 t (ix3 r n k) = m ((c.tc : Thread nD τ).loc main_arg0) (ix3 (grow t r) n k) := by
  rw [← V_main_arg0 m c]
  show V m c main_arg0 (((cfg0.win 0).blk t).view.emb (ix3 r n k)) = V m c main_arg0 (ix3 (grow t r) n k)
  refine congrArg _ ?_
  obtain ⟨e0, e1, e2⟩ := (index_facts t).1
  funext a; apply Fin.ext
  match a with
  | ⟨0, _⟩ => show win0_0.index t (0 : Fin 3) * 200 + 1 * r.val = 200 * t.val + r.val; rw [e0]; omega
  | ⟨1, _⟩ => show win0_0.index t (1 : Fin 3) * 32 + 1 * n.val = n.val; rw [e1]; omega
  | ⟨2, _⟩ => show win0_0.index t (2 : Fin 3) * 4 + 1 * k.val = k.val; rw [e2]; omega

/-- Row r of point t's block of the first per-pillar column is pillar 200 t + r's entry. -/
theorem blk_cx (t : Fin cfg0.N) (r : Fin 200) :
    iblk m c 1 t (ix2 r (0 : Fin 1)) = (V m c main_v7 : S40000x1.Idx → EReal) (ix2 (grow t r) (0 : Fin 1)) := by
  show V m c main_v7 (((cfg0.win 1).blk t).view.emb (ix2 r (0 : Fin 1))) = V m c main_v7 (ix2 (grow t r) (0 : Fin 1))
  refine congrArg _ ?_
  obtain ⟨e0, e1⟩ := (index_facts t).2.1
  funext a; apply Fin.ext
  match a with
  | ⟨0, _⟩ => show win0_1.index t (0 : Fin 2) * 200 + 1 * r.val = 200 * t.val + r.val; rw [e0]; omega
  | ⟨1, _⟩ => show win0_1.index t (1 : Fin 2) * 1 + 1 * 0 = 0; rw [e1]

/-- Row r of point t's block of the second per-pillar column is pillar 200 t + r's entry. -/
theorem blk_cy (t : Fin cfg0.N) (r : Fin 200) :
    iblk m c 2 t (ix2 r (0 : Fin 1)) = (V m c main_v15 : S40000x1.Idx → EReal) (ix2 (grow t r) (0 : Fin 1)) := by
  show V m c main_v15 (((cfg0.win 2).blk t).view.emb (ix2 r (0 : Fin 1))) = V m c main_v15 (ix2 (grow t r) (0 : Fin 1))
  refine congrArg _ ?_
  obtain ⟨e0, e1⟩ := (index_facts t).2.2.1
  funext a; apply Fin.ext
  match a with
  | ⟨0, _⟩ => show win0_2.index t (0 : Fin 2) * 200 + 1 * r.val = 200 * t.val + r.val; rw [e0]; omega
  | ⟨1, _⟩ => show win0_2.index t (1 : Fin 2) * 1 + 1 * 0 = 0; rw [e1]

/-- Row r of point t's block of the third per-pillar column is pillar 200 t + r's entry. -/
theorem blk_npts (t : Fin cfg0.N) (r : Fin 200) :
    iblk m c 3 t (ix2 r (0 : Fin 1)) = (V m c main_v17 : S40000x1.Idx → EReal) (ix2 (grow t r) (0 : Fin 1)) := by
  show V m c main_v17 (((cfg0.win 3).blk t).view.emb (ix2 r (0 : Fin 1))) = V m c main_v17 (ix2 (grow t r) (0 : Fin 1))
  refine congrArg _ ?_
  obtain ⟨e0, e1⟩ := (index_facts t).2.2.2.1
  funext a; apply Fin.ext
  match a with
  | ⟨0, _⟩ => show win0_3.index t (0 : Fin 2) * 200 + 1 * r.val = 200 * t.val + r.val; rw [e0]; omega
  | ⟨1, _⟩ => show win0_3.index t (1 : Fin 2) * 1 + 1 * 0 = 0; rw [e1]

/-- Every point's block of the weight matrix is the whole matrix. -/
theorem blk_w (t : Fin cfg0.N) (k : Fin 9) (o : Fin 64) :
    iblk m c 4 t (ix2 k o) = (V m c main_v26 : S9x64.Idx → EReal) (ix2 k o) := by
  show V m c main_v26 (((cfg0.win 4).blk t).view.emb (ix2 k o)) = V m c main_v26 (ix2 k o)
  refine congrArg _ ?_
  obtain ⟨e0, e1⟩ := (index_facts t).2.2.2.2.1
  funext a; apply Fin.ext
  match a with
  | ⟨0, _⟩ => show win0_4.index t (0 : Fin 2) * 9 + 1 * k.val = k.val; rw [e0]; omega
  | ⟨1, _⟩ => show win0_4.index t (1 : Fin 2) * 64 + 1 * o.val = o.val; rw [e1]; omega

/-- Every point's block of the scale row is the whole row. -/
theorem blk_scale (t : Fin cfg0.N) (o : Fin 64) :
    iblk m c 5 t (ix2 (0 : Fin 1) o) = (V m c main_v22 : S1x64.Idx → EReal) (ix2 (0 : Fin 1) o) := by
  show V m c main_v22 (((cfg0.win 5).blk t).view.emb (ix2 (0 : Fin 1) o)) = V m c main_v22 (ix2 (0 : Fin 1) o)
  refine congrArg _ ?_
  obtain ⟨e0, e1⟩ := (index_facts t).2.2.2.2.2.1
  funext a; apply Fin.ext
  match a with
  | ⟨0, _⟩ => show win0_5.index t (0 : Fin 2) * 1 + 1 * (0 : Fin 1).val = (0 : Fin 1).val; rw [e0]; omega
  | ⟨1, _⟩ => show win0_5.index t (1 : Fin 2) * 64 + 1 * o.val = o.val; rw [e1]; omega

/-- Every point's block of the shift row is the whole row. -/
theorem blk_shift (t : Fin cfg0.N) (o : Fin 64) :
    iblk m c 6 t (ix2 (0 : Fin 1) o) = (V m c main_v25 : S1x64.Idx → EReal) (ix2 (0 : Fin 1) o) := by
  show V m c main_v25 (((cfg0.win 6).blk t).view.emb (ix2 (0 : Fin 1) o)) = V m c main_v25 (ix2 (0 : Fin 1) o)
  refine congrArg _ ?_
  obtain ⟨e0, e1⟩ := (index_facts t).2.2.2.2.2.2.1
  funext a; apply Fin.ext
  match a with
  | ⟨0, _⟩ => show win0_6.index t (0 : Fin 2) * 1 + 1 * (0 : Fin 1).val = (0 : Fin 1).val; rw [e0]; omega
  | ⟨1, _⟩ => show win0_6.index t (1 : Fin 2) * 64 + 1 * o.val = o.val; rw [e1]; omega

/-- An index of the pooled array is in point t's block iff each coordinate is in the block's range on its axis. -/
theorem mem_out_blk (t : Fin cfg0.N) (i : S40000x64.Idx) :
    i ∈ ((cfg0.win 7).blk t).view.set
      ↔ ∀ a : Fin 2, win0_7.index t a * S200x64.size a ≤ (i a).val ∧ (i a).val < win0_7.index t a * S200x64.size a + S200x64.size a := by
  show i ∈ ((View.whole main_v27).slice (win0_7.rect t)).set ↔ _
  rw [View.set_slice_whole, Rect.mem_set_unit]
  exact Iff.rfl

/-- Point t's block of the pooled array, read at row r, is the array at pillar 200 t + r. -/
theorem out_emb (t : Fin cfg0.N) (r : Fin 200) (o : Fin 64) :
    ((cfg0.win 7).blk t).view.emb (ix2 r o) = (ix2 (grow t r) o : S40000x64.Idx) := by
  obtain ⟨e0, e1⟩ := (index_facts t).2.2.2.2.2.2.2
  funext a; apply Fin.ext
  match a with
  | ⟨0, _⟩ => show win0_7.index t (0 : Fin 2) * 200 + 1 * r.val = 200 * t.val + r.val; rw [e0]; omega
  | ⟨1, _⟩ => show win0_7.index t (1 : Fin 2) * 64 + 1 * o.val = o.val; rw [e1]; omega

/-- What point t writes back is block t of any function of the pillar index that the body's rows agree with. -/
theorem rows_flushed (G : S40000x64.Idx → EReal)
    (hG : ∀ (t : Fin cfg0.N) (r : Fin 200) (o : Fin 64),
      out0_7 (iblk m c 0 t) (iblk m c 1 t) (iblk m c 2 t) (iblk m c 3 t) (iblk m c 4 t) (iblk m c 5 t) (iblk m c 6 t) (ix2 r o)
        = G (ix2 (grow t r) o))
    (t : Fin cfg0.N) :
    (dats m 0 c).flushed 7 t = ((cfg0.win 7).blk t).view.read (Elt Ideal) G := by
  show (cfg0.win 7).cut (grid0.coords t) ((dats m 0 c).after 7 t) = _
  rw [after0_7]
  refine funext fun (j : S200x64.Idx) => ?_
  obtain ⟨r, o, rfl⟩ : ∃ (r : Fin 200) (o : Fin 64), j = ix2 r o := ⟨j 0, j 1, eq_ix2 j⟩
  show out0_7 (iblk m c 0 t) (iblk m c 1 t) (iblk m c 2 t) (iblk m c 3 t) (iblk m c 4 t) (iblk m c 5 t) (iblk m c 6 t) (ix2 r o)
      = G (((cfg0.win 7).blk t).view.emb (ix2 r o))
  rw [hG t r o, out_emb t r o]

/-- The pooled array after the region: any function of the pillar index that every block's rows agree with. -/
theorem arr_of_rows (G : S40000x64.Idx → EReal)
    (hG : ∀ (t : Fin cfg0.N) (r : Fin 200) (o : Fin 64),
      out0_7 (iblk m c 0 t) (iblk m c 1 t) (iblk m c 2 t) (iblk m c 3 t) (iblk m c 4 t) (iblk m c 5 t) (iblk m c 6 t) (ix2 r o)
        = G (ix2 (grow t r) o)) :
    (dats m 0 c).arrAt 7 cfg0.N = G := by
  refine (dats m 0 c).arrAt_eq_of_cover 7 G (fun t _ => rows_flushed m c G hG t) fun (i : S40000x64.Idx) => ?_
  have hi0 : (i 0).val < 40000 := (i 0).isLt
  have hi1 : (i 1).val < 64 := (i 1).isLt
  obtain ⟨t, ht⟩ : ∃ t : Fin cfg0.N, t.val = (i 0).val / 200 :=
    ⟨⟨(i 0).val / 200, Nat.lt_of_lt_of_eq (by omega : (i 0).val / 200 < 200) N_0.symm⟩, rfl⟩
  obtain ⟨e0, e1⟩ := (index_facts t).2.2.2.2.2.2.2
  refine ⟨t, flush0_7 t, ?_⟩
  rw [mem_out_blk]
  intro a
  match a with
  | ⟨0, _⟩ => show win0_7.index t (0 : Fin 2) * 200 ≤ (i 0).val ∧ (i 0).val < win0_7.index t (0 : Fin 2) * 200 + 200; rw [e0, ht]; omega
  | ⟨1, _⟩ => show win0_7.index t (1 : Fin 2) * 64 ≤ (i 1).val ∧ (i 1).val < win0_7.index t (1 : Fin 2) * 64 + 64; rw [e1]; omega

end Cert.Pillar

end
-- ==== Proof.HostPrefix.lean ====
import proofs.«180584_j4277787427173_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

/-!
What the six computed operand arrays hold when the region is entered.

Before the region the host program computes, from the launched arguments,
* the pillar centre coordinates `cx`, `cy`: an integer column of the coordinate array converted to a
  float, times the voxel size, plus the offset of the first voxel centre, as a one-column matrix;
* the number of points of each pillar converted to a float, as a one-column matrix;
* the convolution weights transposed;
* the folded batch normalisation: `scale = gamma / sqrt (var + eps)` and
  `shift = beta - mean * scale`, each as a one-row matrix.
Each array is first obtained as the composed term of the host operations over the launch memory, and that
term is then read at one index: a reshape between a vector and a one-column or one-row matrix keeps the
row-major position, a column slice shifts the column, a transpose swaps the two coordinates, and the
arithmetic is elementwise.
-/

noncomputable section

namespace Cert.KernelIdeal.HostPrefix

open Cert.KernelIdeal Cert.KernelIdeal.Gen Idealize.ShloMosaic Idealize.ShloMosaic.TcCoe
open Idealize.ShloMosaic.ValueIdx Idealize.ShloMosaic.StableHlo

/-! ## Three layout reads -/

section Layout
variable {α : Type}

/-- A vector cast to a one-column matrix reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    omega)

/-- A one-column matrix cast to a vector reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- Column `k` of a matrix, sliced out as a one-column matrix, reads, at `(p, 0)`, the matrix at `(p, k)`. -/
theorem slice_col_apply {a b : ℕ} (k : ℕ) (x : (⟨2, ![a, b]⟩ : Shape).Idx → α)
    (h : (⟨2, ![a, b]⟩ : Shape).Slices ![0, k] ⟨2, ![a, 1]⟩) (p : Fin a) (q : Fin b) (hq : q.val = k) :
    extractStridedSlice ⟨2, ![a, 1]⟩ ![0, k] x h (ix2 p (0 : Fin 1)) = x (ix2 p q) :=
  extractStridedSlice_apply _ x h _ _ fun d => match d with
    | ⟨0, _⟩ => by show p.val = 0 + p.val; omega
    | ⟨1, _⟩ => by show q.val = k + 0; omega

end Layout

/-! ## The composed terms at an index, over variables -/

/-- An integer column `q` of the coordinate array, converted, scaled by the word `w0` and shifted by the word
    `w1`, as a one-column matrix: at `(p, 0)` it is the entry `(p, q)` as a real, times `w0`, plus `w1`. -/
theorem affine_col_apply (A : IVec S40000x3 32) (k : ℕ) (hs : S40000x3.Slices ![0, k] S40000x1) (q : Fin 3)
    (hq : q.val = k) (w0 w1 : BitVec 32) (p : Fin 40000) :
    (shapeCast S40000x1
        (addf
          (mulf
            (sitofp (F := Ideal) .f32
              (shapeCast S40000 (extractStridedSlice S40000x1 ![0, k] A hs) shapeCasts_S40000x1_S40000))
            (broadcastInDim S40000 ![] bcast_S_S40000 (constant (F := Ideal) S_ .f32 w0)))
          (broadcastInDim S40000 ![] bcast_S_S40000 (constant (F := Ideal) S_ .f32 w1)))
        shapeCasts_S40000_S40000x1 : S40000x1.Idx → EReal) (ix2 p (0 : Fin 1))
      = (((A (ix2 p q)).toInt : ℝ) : EReal) * Ideal.ofBits .f32 w0 + Ideal.ofBits .f32 w1 := by
  refine (shapeCast_a_a1_apply _ _ p 0).trans ?_
  rw [addf_apply, mulf_apply, sitofp_apply, shapeCast_a1_a_apply, slice_col_apply k A hs p q hq]
  rfl

/-- The folded batch-normalisation scale as a one-row matrix: at `(0, o)` it is `gamma / sqrt (var + eps)`. -/
theorem scale_row_apply (g v : FVec Ideal S64 .f32) (w : BitVec 32) (o : Fin 64) :
    (shapeCast S1x64
        (Host.divf g (Host.sqrt (addf v (broadcastInDim S64 ![] bcast_S_S64 (constant (F := Ideal) S_ .f32 w)))))
        shapeCasts_S64_S1x64 : S1x64.Idx → EReal) (ix2 (0 : Fin 1) o)
      = Ideal.div (g (ix1 o)) (Ideal.sqrt (v (ix1 o) + Ideal.ofBits .f32 w)) := by
  refine (shapeCast_a_1a_apply _ _ 0 o).trans ?_
  rfl

/-- The folded batch-normalisation shift as a one-row matrix: at `(0, o)` it is `beta - mean * scale`. -/
theorem shift_row_apply (g b μ v : FVec Ideal S64 .f32) (w : BitVec 32) (o : Fin 64) :
    (shapeCast S1x64
        (subf b (mulf μ
          (Host.divf g (Host.sqrt (addf v (broadcastInDim S64 ![] bcast_S_S64 (constant (F := Ideal) S_ .f32 w)))))))
        shapeCasts_S64_S1x64 : S1x64.Idx → EReal) (ix2 (0 : Fin 1) o)
      = b (ix1 o) - μ (ix1 o) * Ideal.div (g (ix1 o)) (Ideal.sqrt (v (ix1 o) + Ideal.ofBits .f32 w)) := by
  refine (shapeCast_a_1a_apply _ _ 0 o).trans ?_
  rfl

/-! ## The six arrays as the region finds them -/

variable (m : (ℓ : Loc nD τ sig) → Buf (Elt Ideal) ℓ) (c : Dev nD)

/-- The launched argument arrays, at their literal types: the coordinate array, -/
abbrev A1 : S40000x3.Idx → BitVec 32 := m ((c : Thread nD τ).loc main_arg1)
/-- the numbers of points, -/
abbrev A2 : S40000.Idx → BitVec 32 := m ((c : Thread nD τ).loc main_arg2)
/-- the convolution weights, -/
abbrev A3 : S64x9.Idx → EReal := m ((c : Thread nD τ).loc main_arg3)
/-- and the batch normalisation's gamma, beta, mean and variance. -/
abbrev A4 : S64.Idx → EReal := m ((c : Thread nD τ).loc main_arg4)
abbrev A5 : S64.Idx → EReal := m ((c : Thread nD τ).loc main_arg5)
abbrev A6 : S64.Idx → EReal := m ((c : Thread nD τ).loc main_arg6)
abbrev A7 : S64.Idx → EReal := m ((c : Thread nD τ).loc main_arg7)

/-- The pillar centre's first coordinate: column 1 of the coordinate array, times the voxel size, plus the offset. -/
theorem cx (p : Fin 40000) :
    (V m c main_v7 : S40000x1.Idx → EReal) (ix2 p (0 : Fin 1))
      = ((((A1 m c) (ix2 p (1 : Fin 3))).toInt : ℝ) : EReal)
          * Ideal.ofBits .f32 0x3E23D70A#32 + Ideal.ofBits .f32 0x3DA3D70A#32 := by
  have e : (V m c main_v7 : S40000x1.Idx → EReal)
      = shapeCast S40000x1
          (addf
            (mulf
              (sitofp (F := Ideal) .f32
                (shapeCast S40000
                  (extractStridedSlice S40000x1 ![0, 1] (A1 m c)
                    slices_S40000x3_S40000x1_0_1) shapeCasts_S40000x1_S40000))
              (broadcastInDim S40000 ![] bcast_S_S40000 (constant (F := Ideal) S_ .f32 0x3E23D70A#32)))
            (broadcastInDim S40000 ![] bcast_S_S40000 (constant (F := Ideal) S_ .f32 0x3DA3D70A#32)))
          shapeCasts_S40000_S40000x1 := by
    show StableHlo.after hostOps0 (fun b => m (c, b)) (Proc.devRef .tc main_v7) = _
    after_results
    rfl
  exact (congrFun e _).trans (affine_col_apply _ 1 _ 1 rfl _ _ p)

/-- The pillar centre's second coordinate: column 2 of the coordinate array, times the voxel size, plus the offset. -/
theorem cy (p : Fin 40000) :
    (V m c main_v15 : S40000x1.Idx → EReal) (ix2 p (0 : Fin 1))
      = ((((A1 m c) (ix2 p (2 : Fin 3))).toInt : ℝ) : EReal)
          * Ideal.ofBits .f32 0x3E23D70A#32 + Ideal.ofBits .f32 0xC21E6666#32 := by
  have e : (V m c main_v15 : S40000x1.Idx → EReal)
      = shapeCast S40000x1
          (addf
            (mulf
              (sitofp (F := Ideal) .f32
                (shapeCast S40000
                  (extractStridedSlice S40000x1 ![0, 2] (A1 m c)
                    slices_S40000x3_S40000x1_0_2) shapeCasts_S40000x1_S40000))
              (broadcastInDim S40000 ![] bcast_S_S40000 (constant (F := Ideal) S_ .f32 0x3E23D70A#32)))
            (broadcastInDim S40000 ![] bcast_S_S40000 (constant (F := Ideal) S_ .f32 0xC21E6666#32)))
          shapeCasts_S40000_S40000x1 := by
    show StableHlo.after hostOps0 (fun b => m (c, b)) (Proc.devRef .tc main_v15) = _
    after_results
    rfl
  exact (congrFun e _).trans (affine_col_apply _ 2 _ 2 rfl _ _ p)

/-- The number of points of pillar `p`, as a real. -/
theorem npts (p : Fin 40000) :
    (V m c main_v17 : S40000x1.Idx → EReal) (ix2 p (0 : Fin 1))
      = ((((A2 m c) (ix1 p)).toInt : ℝ) : EReal) := by
  have e : (V m c main_v17 : S40000x1.Idx → EReal)
      = shapeCast S40000x1
          (sitofp (F := Ideal) .f32 (A2 m c))
          shapeCasts_S40000_S40000x1 := by
    show StableHlo.after hostOps0 (fun b => m (c, b)) (Proc.devRef .tc main_v17) = _
    after_results
    rfl
  exact (congrFun e _).trans (shapeCast_a_a1_apply _ _ p 0)

/-- The convolution weights transposed: entry `(k, o)` is the launched weight `(o, k)`. -/
theorem convw (k : Fin 9) (o : Fin 64) :
    (V m c main_v26 : S9x64.Idx → EReal) (ix2 k o)
      = (A3 m c) (ix2 o k) := by
  have e : (V m c main_v26 : S9x64.Idx → EReal)
      = transpose S9x64 [1, 0] (A3 m c) transposes_S64x9_S9x64_1_0 := by
    show StableHlo.after hostOps0 (fun b => m (c, b)) (Proc.devRef .tc main_v26) = _
    after_results
  exact (congrFun e _).trans (transpose_ix2_apply _ _ k o)

/-- The folded scale at channel `o`. -/
theorem scale (o : Fin 64) :
    (V m c main_v22 : S1x64.Idx → EReal) (ix2 (0 : Fin 1) o)
      = Ideal.div ((A4 m c) (ix1 o))
          (Ideal.sqrt ((A7 m c) (ix1 o) + Ideal.ofBits .f32 0x3A83126F#32)) := by
  have e : (V m c main_v22 : S1x64.Idx → EReal)
      = shapeCast S1x64
          (Host.divf (F := Ideal) (φ := .f32) (A4 m c)
            (Host.sqrt (addf (A7 m c)
              (broadcastInDim S64 ![] bcast_S_S64 (constant (F := Ideal) S_ .f32 0x3A83126F#32)))))
          shapeCasts_S64_S1x64 := by
    show StableHlo.after hostOps0 (fun b => m (c, b)) (Proc.devRef .tc main_v22) = _
    after_results
    rfl
  exact (congrFun e _).trans (scale_row_apply _ _ _ o)

/-- The folded shift at channel `o`. -/
theorem shift (o : Fin 64) :
    (V m c main_v25 : S1x64.Idx → EReal) (ix2 (0 : Fin 1) o)
      = (A5 m c) (ix1 o)
          - (A6 m c) (ix1 o)
            * Ideal.div ((A4 m c) (ix1 o))
                (Ideal.sqrt ((A7 m c) (ix1 o) + Ideal.ofBits .f32 0x3A83126F#32)) := by
  have e : (V m c main_v25 : S1x64.Idx → EReal)
      = shapeCast S1x64
          (subf (F := Ideal) (φ := .f32) (A5 m c)
            (mulf (A6 m c)
              (Host.divf (A4 m c)
                (Host.sqrt (addf (A7 m c)
                  (broadcastInDim S64 ![] bcast_S_S64 (constant (F := Ideal) S_ .f32 0x3A83126F#32)))))))
          shapeCasts_S64_S1x64 := by
    show StableHlo.after hostOps0 (fun b => m (c, b)) (Proc.devRef .tc main_v25) = _
    after_results_simp
    rfl
  exact (congrFun e _).trans (shift_row_apply _ _ _ _ _ o)

end Cert.KernelIdeal.HostPrefix
-- ==== Proof.Spec.lean ====
/-
  The mathematics shared by the two programs, with no program in sight.

  A pillar is 32 points of 4 raw channels. Each point gets 9 channels: the 4 raw ones, the first 3 minus
  the pillar's centroid (the sum over the 32 points divided by the point count), and the first 2 minus
  the pillar's cell centre. Points at or beyond the point count are masked to zero. The 9 channels are
  mixed into 64 by a weight matrix, an affine batch-norm is applied, negative values are clipped, and
  the maximum over the 32 points is taken.

  The laws proved here, all on the extended reals:
  * an accumulation of nine products started from zero is the sum over the nine channels
    (commutativity and associativity only: it holds at the infinities);
  * the two spellings of the batch-norm, x*s + (b - m*s) and (x - m)*s + b, agree for every
    extended real x once s, m, b are real (a case split on x at the infinities and on the sign of s);
  * a 32-bit integer converted to a float and truncated back is itself;
  * a one-bit word widened to 32 bits and read signed is the bit read unsigned.
-/
import Idealize.ShloMosaic.PureOps.Ideal
import Idealize.ShloMosaic.PureOps.Ideal.Laws
import Idealize.ShloMosaic.Lib.ValueIdx

noncomputable section

namespace Cert.Pillar

open Idealize.ShloMosaic

/-- Nine channels laid end to end: four, then three, then one, then one. -/
def cat9 {α : Type} (a : Fin 4 → α) (b : Fin 3 → α) (c d : α) (k : Fin 9) : α :=
  if h4 : k.val < 4 then a ⟨k.val, h4⟩
  else if h7 : k.val < 7 then b ⟨k.val - 4, by omega⟩
  else if k.val = 7 then c else d

/-- An accumulation of nine terms onto zero, in the order the terms come, is their sum. -/
theorem chain9 (t : Fin 9 → EReal) :
    (0 : EReal) + t 0 + t 1 + t 2 + t 3 + t 4 + t 5 + t 6 + t 7 + t 8 = ∑ k : Fin 9, t k := by
  rw [zero_add]
  simp only [Fin.sum_univ_succ, Fin.sum_univ_zero, add_zero]
  simp only [add_assoc]
  rfl

/-- The two spellings of an affine normalisation agree on every extended real, the scale, the mean and the
    offset being real. -/
theorem bn_affine (x : EReal) (s m b : ℝ) :
    x * (s : EReal) + ((b : EReal) - (m : EReal) * (s : EReal)) = (x - (m : EReal)) * (s : EReal) + (b : EReal) := by
  induction x using EReal.rec with
  | bot =>
    rcases lt_trichotomy s 0 with hs | hs | hs
    · have h1 : (⊥ : EReal) * (s : EReal) = ⊤ := EReal.bot_mul_coe_of_neg hs
      have h2 : (⊥ : EReal) - (m : EReal) = ⊥ := by rw [sub_eq_add_neg, ← EReal.coe_neg, EReal.bot_add]
      rw [h2, h1, ← EReal.coe_mul, ← EReal.coe_sub, EReal.top_add_coe, EReal.top_add_coe]
    · subst hs
      simp
    · have h1 : (⊥ : EReal) * (s : EReal) = ⊥ := EReal.bot_mul_coe_of_pos hs
      have h2 : (⊥ : EReal) - (m : EReal) = ⊥ := by rw [sub_eq_add_neg, ← EReal.coe_neg, EReal.bot_add]
      rw [h2, h1, EReal.bot_add, EReal.bot_add]
  | coe r =>
    rw [← EReal.coe_mul, ← EReal.coe_mul, ← EReal.coe_sub, ← EReal.coe_add, ← EReal.coe_sub, ← EReal.coe_mul,
      ← EReal.coe_add]
    congr 1
    ring
  | top =>
    rcases lt_trichotomy s 0 with hs | hs | hs
    · have h1 : (⊤ : EReal) * (s : EReal) = ⊥ := EReal.top_mul_coe_of_neg hs
      have h2 : (⊤ : EReal) - (m : EReal) = ⊤ := by rw [sub_eq_add_neg, ← EReal.coe_neg, EReal.top_add_coe]
      rw [h2, h1, EReal.bot_add, EReal.bot_add]
    · subst hs
      simp
    · have h1 : (⊤ : EReal) * (s : EReal) = ⊤ := EReal.top_mul_coe_of_pos hs
      have h2 : (⊤ : EReal) - (m : EReal) = ⊤ := by rw [sub_eq_add_neg, ← EReal.coe_neg, EReal.top_add_coe]
      rw [h2, h1, ← EReal.coe_mul, ← EReal.coe_sub, EReal.top_add_coe, EReal.top_add_coe]

/-- A 32-bit integer, converted exactly and truncated back with clamping to the 32-bit range, is itself. -/
theorem fptosi_sitofp (n : BitVec 32) : Ideal.fptosi 32 (((n.toInt : ℝ) : EReal)) = n := by
  unfold Ideal.fptosi
  show BitVec.ofInt 32 (max (-(((2 ^ (32 - 1) : ℕ) : ℤ))) (min ((((2 ^ (32 - 1) : ℕ) : ℤ)) - 1)
    (if (0 : ℝ) ≤ (n.toInt : ℝ) then ⌊(n.toInt : ℝ)⌋ else ⌈(n.toInt : ℝ)⌉))) = n
  have hlo : -(2 ^ 31 : ℤ) ≤ n.toInt := by have := BitVec.le_toInt n; simpa using this
  have hhi : n.toInt ≤ 2 ^ 31 - 1 := by have := BitVec.toInt_lt (x := n); simp at this; omega
  have hfl : (if (0 : ℝ) ≤ (n.toInt : ℝ) then ⌊(n.toInt : ℝ)⌋ else ⌈(n.toInt : ℝ)⌉) = n.toInt := by
    split <;> simp
  rw [hfl]
  have : max (-(((2 ^ (32 - 1) : ℕ) : ℤ))) (min ((((2 ^ (32 - 1) : ℕ) : ℤ)) - 1) n.toInt) = n.toInt := by
    norm_num
    omega
  rw [this]
  exact BitVec.ofInt_toInt

/-- The float the pattern of one thousandth denotes is a positive real. -/
theorem eps_pos : ∃ q : ℝ, 0 < q ∧ Ideal.ofBits .f32 0x3A83126F#32 = (q : EReal) := by
  refine ⟨_, ?_, by simp [Ideal.ofBits, Ideal.ieee, -EReal.coe_mul]; rfl⟩
  positivity

end Cert.Pillar

end
-- ==== Proof.KerLayout.lean ====
/-
  The kernel body's layout operations, each read at one index: a broadcast repeats its operand along the
  axes it adds or stretches, a slice shifts the index by its offsets, a shape cast that only inserts a unit
  axis keeps the row-major position, a lane iota holds the lane number, a sum or a maximum over the points
  of a pillar ranges over the 32 points, and a concatenation of the four channel groups along the last axis
  is the nine-channel function of the groups.
-/
import proofs.«180584_j4277787427173_2_alg».proof.KernelIdeal
import proofs.«180584_j4277787427173_2_alg».proof.Proof.Spec
import Idealize.ShloMosaic.Lib.Pipeline.Value
import Idealize.ShloMosaic.Lib.ValueIdx
import Idealize.ShloMosaic.PureOps.Ideal.Laws

noncomputable section

namespace Cert.Pillar

open Idealize.ShloMosaic Idealize.ShloMosaic.ValueIdx Cert.KernelIdeal

variable {α : Type}

/-! ## Broadcasts -/

theorem bc_a11_a1c (v : S200x1x1.Idx → α) (h : S200x1x1.Broadcasts S200x1x3) (r : Fin 200) (j : Fin 3) :
    broadcastTo S200x1x3 v h (ix3 r (0 : Fin 1) j) = v (ix3 r (0 : Fin 1) (0 : Fin 1)) :=
  congrArg v (by funext a; match a with | ⟨0, _⟩ => rfl | ⟨1, _⟩ => rfl | ⟨2, _⟩ => rfl)

theorem bc_a1c_abc (v : S200x1x3.Idx → α) (h : S200x1x3.Broadcasts S200x32x3) (r : Fin 200) (n : Fin 32) (j : Fin 3) :
    broadcastTo S200x32x3 v h (ix3 r n j) = v (ix3 r (0 : Fin 1) j) :=
  congrArg v (by funext a; match a with | ⟨0, _⟩ => rfl | ⟨1, _⟩ => rfl | ⟨2, _⟩ => rfl)

theorem bc_a11_ab1 (v : S200x1x1.Idx → α) (h : S200x1x1.Broadcasts S200x32x1) (r : Fin 200) (n : Fin 32) :
    broadcastTo S200x32x1 v h (ix3 r n (0 : Fin 1)) = v (ix3 r (0 : Fin 1) (0 : Fin 1)) :=
  congrArg v (by funext a; match a with | ⟨0, _⟩ => rfl | ⟨1, _⟩ => rfl | ⟨2, _⟩ => rfl)

theorem bc_1b_ab (v : S1x32.Idx → α) (h : S1x32.Broadcasts S200x32) (r : Fin 200) (n : Fin 32) :
    broadcastTo S200x32 v h (ix2 r n) = v (ix2 (0 : Fin 1) n) :=
  congrArg v (by funext a; match a with | ⟨0, _⟩ => rfl | ⟨1, _⟩ => rfl)

theorem bc_a1_ab (v : S200x1.Idx → α) (h : S200x1.Broadcasts S200x32) (r : Fin 200) (n : Fin 32) :
    broadcastTo S200x32 v h (ix2 r n) = v (ix2 r (0 : Fin 1)) :=
  congrArg v (by funext a; match a with | ⟨0, _⟩ => rfl | ⟨1, _⟩ => rfl)

theorem bc_ab1_ab9 (v : S200x32x1.Idx → α) (h : S200x32x1.Broadcasts S200x32x9) (r : Fin 200) (n : Fin 32) (k : Fin 9) :
    broadcastTo S200x32x9 v h (ix3 r n k) = v (ix3 r n (0 : Fin 1)) :=
  congrArg v (by funext a; match a with | ⟨0, _⟩ => rfl | ⟨1, _⟩ => rfl | ⟨2, _⟩ => rfl)

theorem bc_ab1_abo (v : S200x32x1.Idx → α) (h : S200x32x1.Broadcasts S200x32x64) (r : Fin 200) (n : Fin 32) (o : Fin 64) :
    broadcastTo S200x32x64 v h (ix3 r n o) = v (ix3 r n (0 : Fin 1)) :=
  congrArg v (by funext a; match a with | ⟨0, _⟩ => rfl | ⟨1, _⟩ => rfl | ⟨2, _⟩ => rfl)

theorem bc_11o_abo (v : S1x1x64.Idx → α) (h : S1x1x64.Broadcasts S200x32x64) (r : Fin 200) (n : Fin 32) (o : Fin 64) :
    broadcastTo S200x32x64 v h (ix3 r n o) = v (ix3 (0 : Fin 1) (0 : Fin 1) o) :=
  congrArg v (by funext a; match a with | ⟨0, _⟩ => rfl | ⟨1, _⟩ => rfl | ⟨2, _⟩ => rfl)

/-! ## Slices -/

theorem sl_xyz (v : S200x32x4.Idx → α) (h : S200x32x4.Slices ![0, 0, 0] S200x32x3) (r : Fin 200) (n : Fin 32) (j : Fin 3) :
    extractStridedSlice S200x32x3 ![0, 0, 0] v h (ix3 r n j) = v (ix3 r n (⟨j.val, by omega⟩ : Fin 4)) :=
  congrArg v (by funext a; match a with | ⟨0, _⟩ => exact Fin.ext (by show 0 + r.val = r.val; omega) | ⟨1, _⟩ => exact Fin.ext (by show 0 + n.val = n.val; omega) | ⟨2, _⟩ => exact Fin.ext (by show 0 + j.val = j.val; omega))

theorem sl_raw (c : Nat) (hc : c < 4) (v : S200x32x4.Idx → α) (h : S200x32x4.Slices ![0, 0, c] S200x32x1) (r : Fin 200) (n : Fin 32) :
    extractStridedSlice S200x32x1 ![0, 0, c] v h (ix3 r n (0 : Fin 1)) = v (ix3 r n (⟨c, hc⟩ : Fin 4)) :=
  congrArg v (by funext a; match a with | ⟨0, _⟩ => exact Fin.ext (by show 0 + r.val = r.val; omega) | ⟨1, _⟩ => exact Fin.ext (by show 0 + n.val = n.val; omega) | ⟨2, _⟩ => exact Fin.ext (by show c + 0 = c; omega))

theorem sl_chan (c : Nat) (hc : c < 9) (v : S200x32x9.Idx → α) (h : S200x32x9.Slices ![0, 0, c] S200x32x1) (r : Fin 200) (n : Fin 32) :
    extractStridedSlice S200x32x1 ![0, 0, c] v h (ix3 r n (0 : Fin 1)) = v (ix3 r n (⟨c, hc⟩ : Fin 9)) :=
  congrArg v (by funext a; match a with | ⟨0, _⟩ => exact Fin.ext (by show 0 + r.val = r.val; omega) | ⟨1, _⟩ => exact Fin.ext (by show 0 + n.val = n.val; omega) | ⟨2, _⟩ => exact Fin.ext (by show c + 0 = c; omega))

theorem sl_wrow (c : Nat) (hc : c < 9) (v : S9x64.Idx → α) (h : S9x64.Slices ![c, 0] S1x64) (o : Fin 64) :
    extractStridedSlice S1x64 ![c, 0] v h (ix2 (0 : Fin 1) o) = v (ix2 (⟨c, hc⟩ : Fin 9) o) :=
  congrArg v (by funext a; match a with | ⟨0, _⟩ => exact Fin.ext (by show c + 0 = c; omega) | ⟨1, _⟩ => exact Fin.ext (by show 0 + o.val = o.val; omega))

/-! ## Shape casts that insert a unit axis -/

theorem sc_a1_a11 (v : S200x1.Idx → α) (h : S200x1.ShapeCasts S200x1x1) (r : Fin 200) :
    shapeCast S200x1x1 v h (ix3 r (0 : Fin 1) (0 : Fin 1)) = v (ix2 r (0 : Fin 1)) :=
  shapeCast_apply v h _ _ (by rw [Shape.rowMajor_val_two, Shape.rowMajor_val_three]; show r.val * 1 + 0 = (r.val * 1 + 0) * 1 + 0; omega)

theorem sc_ac_a1c (v : S200x3.Idx → α) (h : S200x3.ShapeCasts S200x1x3) (r : Fin 200) (j : Fin 3) :
    shapeCast S200x1x3 v h (ix3 r (0 : Fin 1) j) = v (ix2 r j) :=
  shapeCast_apply v h _ _ (by rw [Shape.rowMajor_val_two, Shape.rowMajor_val_three]; show r.val * 3 + j.val = (r.val * 1 + 0) * 3 + j.val; omega)

theorem sc_ab_ab1 (v : S200x32.Idx → α) (h : S200x32.ShapeCasts S200x32x1) (r : Fin 200) (n : Fin 32) :
    shapeCast S200x32x1 v h (ix3 r n (0 : Fin 1)) = v (ix2 r n) :=
  shapeCast_apply v h _ _ (by rw [Shape.rowMajor_val_two, Shape.rowMajor_val_three]; show r.val * 32 + n.val = (r.val * 32 + n.val) * 1 + 0; omega)

theorem sc_1o_11o (v : S1x64.Idx → α) (h : S1x64.ShapeCasts S1x1x64) (o : Fin 64) :
    shapeCast S1x1x64 v h (ix3 (0 : Fin 1) (0 : Fin 1) o) = v (ix2 (0 : Fin 1) o) :=
  shapeCast_apply v h _ _ (by rw [Shape.rowMajor_val_two, Shape.rowMajor_val_three]; show 0 * 64 + o.val = (0 * 1 + 0) * 64 + o.val; omega)

/-! ## Pointwise integer operations -/

theorem cmpi_at {s : Shape} {w : Nat} (p : CmpIPredicate) (a b : IVec s w) (i : s.Idx) : cmpi p a b i = IntOp.cmpi p (a i) (b i) := rfl

theorem fptosi_at {s : Shape} {φ : FTy} (w : Nat) (x : FVec Ideal s φ) (i : s.Idx) : fptosi w x i = Ideal.fptosi w (x i) := rfl

/-! ## The lane number, the sum and the maximum over a pillar's points -/

theorem iota_lane (h : S1x32.Iotas .tc 32 [1]) (n : Fin 32) :
    iota .tc S1x32 32 [1] h (ix2 (0 : Fin 1) n) = BitVec.ofNat 32 n.val :=
  iota_single_apply .tc S1x32 32 1 h _

theorem sum_points (v : FVec Ideal S200x32x3 .f32) (h : S200x32x3.Reduces [1] S200x3) (hφ : FTy.f32 = FTy.f32 ∨ FTy.f32 = FTy.bf16)
    (hacc : (0x00000000#32 : BitVec 32) = 0x00000000#32) (r : Fin 200) (j : Fin 3) :
    multiReduction .add [1] S200x3 v 0x00000000#32 h hφ hacc (ix2 r j) = ∑ k : Fin 32, v (ix3 r k j) := by
  refine (Ideal.multiReduction_add_single v 0x00000000#32 h hφ hacc (ix2 r j)).trans ?_
  refine Finset.sum_congr rfl fun k _ => congrArg v ?_
  funext a; match a with | ⟨0, _⟩ => rfl | ⟨1, _⟩ => rfl | ⟨2, _⟩ => rfl

theorem max_points (v : FVec Ideal S200x32x64 .f32) (h : S200x32x64.Reduces [1] S200x64) (hφ : FTy.f32 = FTy.f32 ∨ FTy.f32 = FTy.bf16)
    (hacc : (0xFF800000#32 : BitVec 32) = 0xFF800000#32) (r : Fin 200) (o : Fin 64) :
    multiReduction .maximumf [1] S200x64 v 0xFF800000#32 h hφ hacc (ix2 r o)
      = (Finset.univ : Finset (Fin 32)).fold max (Ideal.ofBits .f32 0xFF800000#32) (fun n => v (ix3 r n o)) := by
  refine (Ideal.multiReduction_maximumf_single v 0xFF800000#32 h hφ hacc (ix2 r o)).trans ?_
  refine congrArg (Finset.fold max _ · _) ?_
  funext k
  refine congrArg v ?_
  funext a; match a with | ⟨0, _⟩ => rfl | ⟨1, _⟩ => rfl | ⟨2, _⟩ => rfl

end Cert.Pillar

end
-- ==== Proof.Cat9.lean ====
/-
  Four channel groups of extents 4, 3, 1 and 1 joined along the last axis of a three-axis array: read at
  channel k, the join is the first group for k < 4, the second at k - 4 for k < 7, the third at k = 7 and
  the fourth at k = 8. The two leading extents are arbitrary.
-/
import proofs.«180584_j4277787427173_2_alg».proof.Proof.Spec
import Idealize.ShloMosaic.Lib.Pipeline.Value
import Idealize.ShloMosaic.Lib.ValueIdx

noncomputable section

namespace Cert.Pillar

open Idealize.ShloMosaic Idealize.ShloMosaic.ValueIdx

variable {α : Type}

theorem cat9_apply {A B : Nat} (a : (⟨3, ![A, B, 4]⟩ : Shape).Idx → α) (b : (⟨3, ![A, B, 3]⟩ : Shape).Idx → α)
    (c d : (⟨3, ![A, B, 1]⟩ : Shape).Idx → α)
    (h : Shape.Concatenates [(⟨3, ![A, B, 4]⟩ : Shape), ⟨3, ![A, B, 3]⟩, ⟨3, ![A, B, 1]⟩, ⟨3, ![A, B, 1]⟩] ⟨3, ![A, B, 9]⟩ 2)
    (p : Fin A) (n : Fin B) (k : Fin 9) :
    concatenate ⟨3, ![A, B, 9]⟩ 2 [⟨⟨3, ![A, B, 4]⟩, a⟩, ⟨⟨3, ![A, B, 3]⟩, b⟩, ⟨⟨3, ![A, B, 1]⟩, c⟩, ⟨⟨3, ![A, B, 1]⟩, d⟩] h (ix3 p n k)
      = cat9 (fun j => a (ix3 p n j)) (fun j => b (ix3 p n j)) (c (ix3 p n (0 : Fin 1))) (d (ix3 p n (0 : Fin 1))) k := by
  unfold cat9
  by_cases h4 : k.val < 4
  · rw [dif_pos h4]
    exact concatenate_apply_piece (t := ⟨3, ![A, B, 9]⟩) (2 : Fin 3) [⟨⟨3, ![A, B, 4]⟩, a⟩, ⟨⟨3, ![A, B, 3]⟩, b⟩, ⟨⟨3, ![A, B, 1]⟩, c⟩, ⟨⟨3, ![A, B, 1]⟩, d⟩] h (ix3 p n k) 0 (by show 0 < 4; omega) _ a rfl rfl 0 rfl (ix3 p n (⟨k.val, h4⟩ : Fin 4))
      (fun e he => by match e with | ⟨0, _⟩ => rfl | ⟨1, _⟩ => rfl | ⟨2, _⟩ => exact absurd rfl he)
      (by show 0 + k.val = k.val; omega)
  · rw [dif_neg h4]
    by_cases h7 : k.val < 7
    · rw [dif_pos h7]
      exact concatenate_apply_piece (t := ⟨3, ![A, B, 9]⟩) (2 : Fin 3) [⟨⟨3, ![A, B, 4]⟩, a⟩, ⟨⟨3, ![A, B, 3]⟩, b⟩, ⟨⟨3, ![A, B, 1]⟩, c⟩, ⟨⟨3, ![A, B, 1]⟩, d⟩] h (ix3 p n k) 1 (by show 1 < 4; omega) _ b rfl rfl 4 rfl (ix3 p n (⟨k.val - 4, by omega⟩ : Fin 3))
        (fun e he => by match e with | ⟨0, _⟩ => rfl | ⟨1, _⟩ => rfl | ⟨2, _⟩ => exact absurd rfl he)
        (by show 4 + (k.val - 4) = k.val; omega)
    · rw [dif_neg h7]
      by_cases h8 : k.val = 7
      · rw [if_pos h8]
        exact concatenate_apply_piece (t := ⟨3, ![A, B, 9]⟩) (2 : Fin 3) [⟨⟨3, ![A, B, 4]⟩, a⟩, ⟨⟨3, ![A, B, 3]⟩, b⟩, ⟨⟨3, ![A, B, 1]⟩, c⟩, ⟨⟨3, ![A, B, 1]⟩, d⟩] h (ix3 p n k) 2 (by show 2 < 4; omega) _ c rfl rfl 7 rfl (ix3 p n (0 : Fin 1))
          (fun e he => by match e with | ⟨0, _⟩ => rfl | ⟨1, _⟩ => rfl | ⟨2, _⟩ => exact absurd rfl he)
          (by show 7 + 0 = k.val; omega)
      · rw [if_neg h8]
        have hk : k.val < 9 := k.isLt
        exact concatenate_apply_piece (t := ⟨3, ![A, B, 9]⟩) (2 : Fin 3) [⟨⟨3, ![A, B, 4]⟩, a⟩, ⟨⟨3, ![A, B, 3]⟩, b⟩, ⟨⟨3, ![A, B, 1]⟩, c⟩, ⟨⟨3, ![A, B, 1]⟩, d⟩] h (ix3 p n k) 3 (by show 3 < 4; omega) _ d rfl rfl 8 rfl (ix3 p n (0 : Fin 1))
          (fun e he => by match e with | ⟨0, _⟩ => rfl | ⟨1, _⟩ => rfl | ⟨2, _⟩ => exact absurd rfl he)
          (by show 8 + 0 = k.val; omega)

end Cert.Pillar

end
-- ==== Proof.Row.lean ====
/-
  One pillar's row of the pooled array, as a function of the pillar's own data.

  feat: the nine channels of point n — the four raw ones, the first three minus the centroid (the sum over
  the 32 points divided by the point count as a float), the first two minus the cell centre.
  pmask: one for a point below the count, zero from the count on (a signed comparison of 32-bit words).
  rowK and rowR: the two programs' spellings of "mix the masked channels with a weight column, normalise,
  clip at zero, take the maximum over the points"; they agree when scale, mean and offset are real, by the
  affine law of the normalisation.
-/
import proofs.«180584_j4277787427173_2_alg».proof.Proof.Spec
import Idealize.ShloMosaic.Lib.KernelVsHost

noncomputable section

namespace Cert.Pillar

open Idealize.ShloMosaic

/-- One below the point count, zero from it on. -/
def pmask (cnt : BitVec 32) (n : Fin 32) : EReal :=
  (((IntOp.cmpi .slt (BitVec.ofNat 32 n.val) cnt).toNat : ℝ) : EReal)

/-- The comparison bit widened to a word and read signed is the mask. -/
theorem pmask_signed (cnt : BitVec 32) (n : Fin 32) :
    ((((BitVec.setWidth 32 (IntOp.cmpi .slt (BitVec.ofNat 32 n.val) cnt)).toInt : ℤ) : ℝ) : EReal) = pmask cnt n := by
  unfold pmask
  rw [toInt_setWidth_bit]
  norm_cast

/-- The nine channels of point n of a pillar with points x, cell centre (cx, cy) and point count nf. -/
def feat (x : Fin 32 → Fin 4 → EReal) (cx cy nf : EReal) (n : Fin 32) (k : Fin 9) : EReal :=
  cat9 (fun j => x n j)
    (fun j => x n ⟨j.val, by omega⟩ - Ideal.div (∑ q : Fin 32, x q ⟨j.val, by omega⟩) nf)
    (x n ⟨0, by omega⟩ - cx) (x n ⟨1, by omega⟩ - cy) k

/-- Mix, scale, shift, clip, maximum over the points: the kernel's spelling. -/
def rowK (F : Fin 32 → Fin 9 → EReal) (W : Fin 9 → EReal) (S T : EReal) : EReal :=
  (Finset.univ : Finset (Fin 32)).fold max (Ideal.ofBits .f32 0xFF800000#32)
    (fun n => max ((∑ k : Fin 9, F n k * W k) * S + T) (Ideal.ofBits .f32 0x00000000#32))

/-- Mix, centre, scale, offset, clip, maximum over the points: the reference's spelling. -/
def rowR (F : Fin 32 → Fin 9 → EReal) (W : Fin 9 → EReal) (M S B : EReal) : EReal :=
  (Finset.univ : Finset (Fin 32)).fold max (Ideal.ofBits .f32 0xFF800000#32)
    (fun n => max (((∑ k : Fin 9, F n k * W k) - M) * S + B) (Ideal.ofBits .f32 0x00000000#32))

/-- With a real scale, mean and offset the two spellings are one function of the mixed channels. -/
theorem rowK_eq_rowR (F : Fin 32 → Fin 9 → EReal) (W : Fin 9 → EReal) (s m b : ℝ) :
    rowK F W (s : EReal) ((b : EReal) - (m : EReal) * (s : EReal)) = rowR F W (m : EReal) (s : EReal) (b : EReal) := by
  unfold rowK rowR
  refine congrArg (Finset.fold max _ · _) ?_
  funext n
  rw [bn_affine]

/-- The scale of the normalisation is real once the offset gain and the variance are real and the variance
    is not negative: the variance plus a positive real is positive, so its root is a positive real. -/
theorem scale_real (g v q : ℝ) (hv : 0 ≤ v) (hq : 0 < q) :
    ∃ s : ℝ, Ideal.div (g : EReal) (Ideal.sqrt ((v : EReal) + (q : EReal))) = (s : EReal) := by
  have hpos : 0 < v + q := by linarith
  have hs : Ideal.sqrt ((v : EReal) + (q : EReal)) = ((Real.sqrt (v + q) : ℝ) : EReal) := by
    rw [← EReal.coe_add, Ideal.sqrt_coe, if_neg (not_lt.mpr hpos.le)]
  have hne : ((Real.sqrt (v + q) : ℝ) : EReal) ≠ 0 := by
    have : Real.sqrt (v + q) ≠ 0 := (Real.sqrt_pos.mpr hpos).ne'
    exact_mod_cast this
  refine ⟨g * (Real.sqrt (v + q))⁻¹, ?_⟩
  rw [hs]
  unfold Ideal.div
  rw [if_neg hne, ← EReal.coe_inv, ← EReal.coe_mul]

end Cert.Pillar

end
-- ==== Proof.KerPay.lean ====
/-
  The kernel body's value at one entry of its output block, as one pillar's row.

  Row r of a block holds a pillar: its 32 points of 4 raw channels, its cell centre and its point count. The
  masked nine-channel features of the block are the features of the pillar; the accumulation of nine
  products onto zero is the sum over the channels; the scaled, shifted and clipped mix is maximised over
  the 32 points. Entry (r, o) of the stored block is therefore rowK of pillar r's masked features, column o
  of the transposed weights, and entry o of the scale and shift rows.
-/
import proofs.«180584_j4277787427173_2_alg».proof.Proof.Gen.KernelIdeal.Frame
import proofs.«180584_j4277787427173_2_alg».proof.Proof.KerLayout
import proofs.«180584_j4277787427173_2_alg».proof.Proof.Cat9
import proofs.«180584_j4277787427173_2_alg».proof.Proof.Row

noncomputable section

namespace Cert.Pillar

open Idealize.ShloMosaic Idealize.ShloMosaic.ValueIdx Cert.KernelIdeal Cert.KernelIdeal.Gen

/-- The masked features of a block, at point n of row r and channel k: the pillar's features times its mask,
    the count word being the float count truncated. -/
theorem pay2_apply (v0 : Vec Ideal S200x32x4 .f32) (v1 v3 v5 : Vec Ideal S200x1 .f32) (r : Fin 200) (n : Fin 32) (k : Fin 9) :
    k0_pay2 v0 v1 v3 v5 (ix3 r n k)
      = feat (fun q j => v0 (ix3 r q j)) (v1 (ix2 r (0 : Fin 1))) (v3 (ix2 r (0 : Fin 1))) (v5 (ix2 r (0 : Fin 1))) n k
          * pmask (Ideal.fptosi 32 (v5 (ix2 r (0 : Fin 1)))) n := by
  unfold k0_pay2
  simp only [mulf_apply, subf_apply, divf_apply, cat9_apply, bc_a11_a1c, bc_a1c_abc, bc_a11_ab1, bc_1b_ab, bc_a1_ab, bc_ab1_ab9,
    sl_xyz, sl_raw 0 (by decide), sl_raw 1 (by decide), sc_a1_a11, sc_ac_a1c, sc_ab_ab1, shapeCast_self,
    sitofp_apply, extui_apply, cmpi_at, fptosi_at]
  rw [iota_lane]
  unfold feat
  refine congrArg₂ (· * ·) (congrArg (fun B => cat9 _ B _ _ k) (funext fun j => ?_)) (pmask_signed _ n)
  exact congrArg (fun z => v0 (ix3 r n ⟨j.val, by omega⟩) - Ideal.div z (v5 (ix2 r (0 : Fin 1))))
    ((sum_points _ _ _ _ r j).trans (Finset.sum_congr rfl fun q _ => sl_xyz v0 _ r q j))

/-- The first product onto the zero accumulator. -/
theorem pay4_apply (v0 : Vec Ideal S200x32x4 .f32) (v1 v3 v5 : Vec Ideal S200x1 .f32) (v34 : Vec Ideal S9x64 .f32)
    (r : Fin 200) (n : Fin 32) (o : Fin 64) :
    k0_pay4 v0 v1 v3 v5 v34 (ix3 r n o)
      = Ideal.ofBits .f32 0x00000000#32 + k0_pay2 v0 v1 v3 v5 (ix3 r n (⟨0, by decide⟩ : Fin 9)) * v34 (ix2 (⟨0, by decide⟩ : Fin 9) o) := by
  unfold k0_pay4 k0_pay3
  simp only [addf_apply, mulf_apply, broadcast_apply, bc_ab1_abo, bc_11o_abo, sc_1o_11o, shapeCast_self, sl_chan 0 (by decide), sl_wrow 0 (by decide)]
  rfl

theorem pay5_apply (v0 : Vec Ideal S200x32x4 .f32) (v1 v3 v5 : Vec Ideal S200x1 .f32) (r : Fin 200) (n : Fin 32) :
    k0_pay5 v0 v1 v3 v5 (ix3 r n (0 : Fin 1)) = k0_pay2 v0 v1 v3 v5 (ix3 r n (⟨1, by decide⟩ : Fin 9)) := by
  unfold k0_pay5
  simp only [sl_chan 1 (by decide)]

theorem pay6_apply (v34 : Vec Ideal S9x64 .f32) (o : Fin 64) :
    k0_pay6 v34 (ix2 (0 : Fin 1) o) = v34 (ix2 (⟨1, by decide⟩ : Fin 9) o) := by
  unfold k0_pay6 k0_pay3
  simp only [sl_wrow 1 (by decide), shapeCast_self]

/-- The remaining seven products accumulated in order. -/
theorem pay7_apply (v33 : FVec Ideal S200x32x9 .f32) (v35 : FVec Ideal S9x64 .f32) (v43 : FVec Ideal S200x32x64 .f32)
    (v44 : FVec Ideal S200x32x1 .f32) (v45 : FVec Ideal S1x64 .f32) (r : Fin 200) (n : Fin 32) (o : Fin 64) :
    k0_pay7 v33 v35 v43 v44 v45 (ix3 r n o)
      = v43 (ix3 r n o) + v44 (ix3 r n (0 : Fin 1)) * v45 (ix2 (0 : Fin 1) o)
        + v33 (ix3 r n (⟨2, by decide⟩ : Fin 9)) * v35 (ix2 (⟨2, by decide⟩ : Fin 9) o)
        + v33 (ix3 r n (⟨3, by decide⟩ : Fin 9)) * v35 (ix2 (⟨3, by decide⟩ : Fin 9) o)
        + v33 (ix3 r n (⟨4, by decide⟩ : Fin 9)) * v35 (ix2 (⟨4, by decide⟩ : Fin 9) o)
        + v33 (ix3 r n (⟨5, by decide⟩ : Fin 9)) * v35 (ix2 (⟨5, by decide⟩ : Fin 9) o)
        + v33 (ix3 r n (⟨6, by decide⟩ : Fin 9)) * v35 (ix2 (⟨6, by decide⟩ : Fin 9) o)
        + v33 (ix3 r n (⟨7, by decide⟩ : Fin 9)) * v35 (ix2 (⟨7, by decide⟩ : Fin 9) o)
        + v33 (ix3 r n (⟨8, by decide⟩ : Fin 9)) * v35 (ix2 (⟨8, by decide⟩ : Fin 9) o) := by
  unfold k0_pay7
  simp only [addf_apply, mulf_apply, bc_ab1_abo, bc_11o_abo, sc_1o_11o, sl_chan 0 (by decide), sl_wrow 0 (by decide), sl_chan 1 (by decide), sl_wrow 1 (by decide), sl_chan 2 (by decide), sl_wrow 2 (by decide), sl_chan 3 (by decide), sl_wrow 3 (by decide), sl_chan 4 (by decide), sl_wrow 4 (by decide), sl_chan 5 (by decide), sl_wrow 5 (by decide), sl_chan 6 (by decide), sl_wrow 6 (by decide), sl_chan 7 (by decide), sl_wrow 7 (by decide), sl_chan 8 (by decide), sl_wrow 8 (by decide)]

/-- Scale, shift, clip at zero and maximise over the points. -/
theorem pay1_apply (v99 : FVec Ideal S200x32x64 .f32) (v101 : FVec Ideal S1x64 .f32) (v102 : Vec Ideal S1x64 .f32) (r : Fin 200) (o : Fin 64) :
    k0_pay1 v99 v101 v102 (ix2 r o)
      = (Finset.univ : Finset (Fin 32)).fold max (Ideal.ofBits .f32 0xFF800000#32)
          (fun n => max (v99 (ix3 r n o) * v101 (ix2 (0 : Fin 1) o) + v102 (ix2 (0 : Fin 1) o)) (Ideal.ofBits .f32 0x00000000#32)) := by
  unfold k0_pay1
  refine (max_points _ _ _ _ r o).trans ?_
  refine congrArg (Finset.fold max _ · _) (funext fun n => ?_)
  simp only [maximumf_apply, addf_apply, mulf_apply, broadcast_apply, bc_11o_abo, sc_1o_11o, shapeCast_self]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (r, o) of the block the body stores, from the blocks it loads. -/
theorem out_apply (x0 : Vec Ideal S200x32x4 .f32) (x1 x2 x3 : Vec Ideal S200x1 .f32) (x4 : Vec Ideal S9x64 .f32) (x5 x6 : Vec Ideal S1x64 .f32)
    (r : Fin 200) (o : Fin 64) :
    out0_7 x0 x1 x2 x3 x4 x5 x6 (ix2 r o)
      = rowK (fun n k => feat (fun q j => x0 (ix3 r q j)) (x1 (ix2 r (0 : Fin 1))) (x2 (ix2 r (0 : Fin 1))) (x3 (ix2 r (0 : Fin 1))) n k
                  * pmask (Ideal.fptosi 32 (x3 (ix2 r (0 : Fin 1)))) n)
          (fun k => x4 (ix2 k o)) (x5 (ix2 (0 : Fin 1) o)) (x6 (ix2 (0 : Fin 1) o)) := by
  unfold out0_7
  rw [View.canon_unit_zero hz2]
  simp only [View.ld_unit_zero (S := S200x32x4) hz3, View.ld_unit_zero (S := S200x1) hz2, View.ld_unit_zero (S := S9x64) hz2,
    View.ld_unit_zero (S := S1x64) hz2]
  rw [pay1_apply]
  unfold rowK
  refine congrArg (Finset.fold max _ · _) (funext fun n => ?_)
  rw [pay7_apply, pay4_apply, pay5_apply, pay6_apply]
  have hk3 : k0_pay3 x4 = x4 := shapeCast_self _ _
  have hk8 : k0_pay8 x5 = x5 := shapeCast_self _ _
  rw [hk3, hk8]
  refine congrArg (fun z => max (z * x5 (ix2 (0 : Fin 1) o) + x6 (ix2 (0 : Fin 1) o)) (Ideal.ofBits .f32 0x00000000#32)) ?_
  rw [Ideal.ofBits_zero_f32]
  refine (chain9 (fun k => k0_pay2 x0 x1 x2 x3 (ix3 r n k) * x4 (ix2 k o))).trans ?_
  exact Finset.sum_congr rfl fun k _ => by rw [pay2_apply]

end Cert.Pillar

end
-- ==== Proof.KerRow.lean ====
/-
  The kernel's pooled array, entry by entry, from the launched arrays.

  Point t of the grid handles pillars 200 t … 200 t + 199; row r of its blocks is pillar 200 t + r. The
  operand arrays computed before the launch hold, for pillar p: the cell centre (the two integer cell
  coordinates scaled and offset), the point count as a float, the transposed weights, and per output
  channel the scale gamma / sqrt(var + eps) and the shift beta - mean * scale. Reading the body's block
  value (one pillar's row) through these gives entry (p, o) of the array after the run.
-/
import proofs.«180584_j4277787427173_2_alg».proof.Proof.Blocks
import proofs.«180584_j4277787427173_2_alg».proof.Proof.HostPrefix
import proofs.«180584_j4277787427173_2_alg».proof.Proof.KerPay

noncomputable section

namespace Cert.Pillar

open Idealize.ShloMosaic Idealize.ShloMosaic.TcCoe Idealize.ShloMosaic.ValueIdx Cert.KernelIdeal Cert.KernelIdeal.Gen Cert.KernelIdeal.HostPrefix

variable (m : (ℓ : Loc nD τ sig) → Buf (Elt Ideal) ℓ) (c : Dev nD)

/-- The launched points array. -/
abbrev A0 : S40000x32x4.Idx → EReal := m ((c : Thread nD τ).loc main_arg0)

/-- The cell centre of pillar p along the first axis. -/
def cxOf (a1 : S40000x3.Idx → BitVec 32) (p : Fin 40000) : EReal :=
  (((a1 (ix2 p (1 : Fin 3))).toInt : ℝ) : EReal) * Ideal.ofBits .f32 0x3E23D70A#32 + Ideal.ofBits .f32 0x3DA3D70A#32

/-- The cell centre of pillar p along the second axis. -/
def cyOf (a1 : S40000x3.Idx → BitVec 32) (p : Fin 40000) : EReal :=
  (((a1 (ix2 p (2 : Fin 3))).toInt : ℝ) : EReal) * Ideal.ofBits .f32 0x3E23D70A#32 + Ideal.ofBits .f32 0xC21E6666#32

/-- The scale of output channel o. -/
def scaleOf (a4 a7 : S64.Idx → EReal) (o : Fin 64) : EReal :=
  Ideal.div (a4 (ix1 o)) (Ideal.sqrt (a7 (ix1 o) + Ideal.ofBits .f32 0x3A83126F#32))

/-- The kernel's pooled entry for pillar p and output channel o. -/
def poolK (a0 : S40000x32x4.Idx → EReal) (a1 : S40000x3.Idx → BitVec 32) (a2 : S40000.Idx → BitVec 32) (a3 : S64x9.Idx → EReal)
    (a4 a5 a6 a7 : S64.Idx → EReal) (p : Fin 40000) (o : Fin 64) : EReal :=
  rowK (fun n k => feat (fun q j => a0 (ix3 p q j)) (cxOf a1 p) (cyOf a1 p) ((((a2 (ix1 p)).toInt : ℝ) : EReal)) n k
            * pmask (Ideal.fptosi 32 ((((a2 (ix1 p)).toInt : ℝ) : EReal))) n)
    (fun k => a3 (ix2 o k)) (scaleOf a4 a7 o) (a5 (ix1 o) - a6 (ix1 o) * scaleOf a4 a7 o)

/-- The array the kernel leaves in its output window. -/
theorem kernel_pooled :
    (dats m 0 c).arrAt 7 cfg0.N
      = fun i : S40000x64.Idx => poolK (A0 m c) (A1 m c) (A2 m c) (A3 m c) (A4 m c) (A5 m c) (A6 m c) (A7 m c)
          ⟨(i 0).val, (i 0).isLt⟩ ⟨(i 1).val, (i 1).isLt⟩ := by
  refine arr_of_rows m c _ fun t r o => ?_
  rw [out_apply]
  show _ = poolK (A0 m c) (A1 m c) (A2 m c) (A3 m c) (A4 m c) (A5 m c) (A6 m c) (A7 m c) (grow t r) o
  unfold poolK cxOf cyOf scaleOf
  simp only [blk_pillars, blk_cx, blk_cy, blk_npts, blk_w, blk_scale, blk_shift]
  have hw : (fun k : Fin 9 => (V m c main_v26 : S9x64.Idx → EReal) (ix2 k o)) = fun k => A3 m c (ix2 o k) :=
    funext fun k => convw m c k o
  rw [cx m c (grow t r), cy m c (grow t r), npts m c (grow t r), scale m c o, shift m c o, hw]

end Cert.Pillar

end
-- ==== Proof.RefRow.lean ====
import proofs.«180584_j4277787427173_2_alg».proof.Proof.Row
import proofs.«180584_j4277787427173_2_alg».proof.Proof.Cat9
import proofs.«180584_j4277787427173_2_alg».proof.Proof.Gen.ReferenceIdeal.Read

/-!
The reference's pooled array, read at one index.

Entry `(p, o)` of the pooled array is the maximum, over the 32 points of pillar `p`, of the clipped
normalised mix of the point's nine masked channels with weight row `o`. The generated module reads every
elementwise and layout operation of the reference at an index; what is left here is
* the maximum over the point axis as a fold of `max` over the 32 points,
* the join of the four channel groups read as `cat9`,
* the composed index functions of the broadcasts and slices, each of which is a tuple of coordinates,
* the mask (a one-bit comparison converted unsigned) read as `pmask`,
and the assembly of these into `rowR` of `feat`.
-/

noncomputable section

namespace Cert.Pillar

open Cert.ReferenceIdeal Cert.ReferenceIdeal.Read Idealize.ShloMosaic Idealize.ShloMosaic.ValueIdx

/-! ## The maximum over the points -/

/-- A maximum-reduction over the middle axis of a `40000 × 32 × 64` array, read at `(p, o)`: the fold of `max`
    over the 32 entries `(p, n, o)`, from the initial value. -/
theorem ref_max (v : FVec Ideal S40000x32x64 .f32) (init : FVec Ideal S_ .f32)
    (h' : S40000x32x64.ReducesTo [1] S40000x64) (hu : 0 < S_.numel) (p : Fin 40000) (o : Fin 64) :
    Host.reduce (FloatOps.maximumf (F := Ideal) (φ := .f32)) v init h' hu (ix2 p o)
      = (Finset.univ : Finset (Fin 32)).fold max (init (Shape.Idx.first hu)) (fun n => v (ix3 p n o)) := by
  have h : S40000x32x64.Reduces [1] S40000x64 := by decide
  refine (Host.reduce_eq_fold_single (FloatOps.maximumf (F := Ideal) (φ := .f32)) v init h' h hu (ix2 p o)).trans ?_
  refine congrArg (Finset.fold max _ · _) ?_
  funext k
  refine congrArg v ?_
  funext a; match a with | ⟨0, _⟩ => rfl | ⟨1, _⟩ => rfl | ⟨2, _⟩ => rfl

/-! ## The composed index functions, as tuples of coordinates -/

section Indices
variable (p : Fin 40000) (n q : Fin 32) (o : Fin 64) (k : Fin 9) (j : Fin 3)

theorem i_lhs : lidx_main_v41 (ix3 p n o) k = ix3 p n k := by
  funext a; match a with | ⟨0, _⟩ => rfl | ⟨1, _⟩ => rfl | ⟨2, _⟩ => rfl
theorem i_rhs : ridx_main_v41 (ix3 p n o) k = ix2 o k := by
  funext a; match a with | ⟨0, _⟩ => rfl | ⟨1, _⟩ => rfl
theorem i_mean : idx_main_v42 (idx_main_v43 (ix3 p n o)) = ix1 o := by
  funext a; match a with | ⟨0, _⟩ => rfl
theorem i_scale : idx_main_v49 (idx_main_v50 (ix3 p n o)) = ix1 o := by
  funext a; match a with | ⟨0, _⟩ => rfl
theorem i_beta : idx_main_v52 (idx_main_v53 (ix3 p n o)) = ix1 o := by
  funext a; match a with | ⟨0, _⟩ => rfl
theorem i_cnt : idx_main_v33 (idx_main_v35 (idx_main_v38 (idx_main_v39 (ix3 p n k)))) = ix1 p := by
  funext a; match a with | ⟨0, _⟩ => rfl
theorem i_raw3 : idx_main_v7 (ix3 p n j) = ix3 p n (⟨j.val, by omega⟩ : Fin 4) := by
  funext a; match a with | ⟨0, _⟩ => rfl | ⟨1, _⟩ => rfl | ⟨2, _⟩ => rfl
theorem i_sum3 : idx_main_v1 (idx_main_v2 (idx_main_v3 (idx_main_v8 (ix3 p n j))) q) = ix3 p q (⟨j.val, by omega⟩ : Fin 4) := by
  funext a; match a with | ⟨0, _⟩ => rfl | ⟨1, _⟩ => rfl | ⟨2, _⟩ => rfl
theorem i_npts : idx_main_v4 (idx_main_v5 (idx_main_v8 (ix3 p n j))) = ix1 p := by
  funext a; match a with | ⟨0, _⟩ => rfl
theorem i_x : idx_main_v24 (ix3 p n (0 : Fin 1)) = ix3 p n (⟨0, by omega⟩ : Fin 4) := by
  funext a; match a with | ⟨0, _⟩ => rfl | ⟨1, _⟩ => rfl | ⟨2, _⟩ => rfl
theorem i_y : idx_main_v27 (ix3 p n (0 : Fin 1)) = ix3 p n (⟨1, by omega⟩ : Fin 4) := by
  funext a; match a with | ⟨0, _⟩ => rfl | ⟨1, _⟩ => rfl | ⟨2, _⟩ => rfl
theorem i_cx : idx_main_v10 (idx_main_v11 (idx_main_v25 (ix3 p n (0 : Fin 1)))) = ix2 p (1 : Fin 3) := by
  funext a; match a with | ⟨0, _⟩ => rfl | ⟨1, _⟩ => rfl
theorem i_cy : idx_main_v17 (idx_main_v18 (idx_main_v28 (ix3 p n (0 : Fin 1)))) = ix2 p (2 : Fin 3) := by
  funext a; match a with | ⟨0, _⟩ => rfl | ⟨1, _⟩ => rfl

end Indices

/-! ## The nine channels of a point -/

section Channels
variable (x0 : (⟨S40000x32x4, .f32⟩ : BufTy).Contents (Elt Ideal)) (x1 : (⟨S40000x3, .i32⟩ : BufTy).Contents (Elt Ideal))
  (x2 : (⟨S40000, .i32⟩ : BufTy).Contents (Elt Ideal)) (p : Fin 40000) (n : Fin 32)

/-- A raw channel minus the centroid's: the sum over the pillar's points divided by the point count. -/
theorem ref_centroid (j : Fin 3) :
    val_main_v9 (F := Ideal) x0 x2 (ix3 p n j)
      = x0 (ix3 p n (⟨j.val, by omega⟩ : Fin 4))
          - Ideal.div (∑ q : Fin 32, x0 (ix3 p q (⟨j.val, by omega⟩ : Fin 4))) ((((x2 (ix1 p)).toInt : ℝ) : EReal)) := by
  simp only [val_main_v0_apply, val_main_v1_apply, val_main_cst_apply, val_main_v2_apply, val_main_v3_apply,
    val_main_v4_apply, val_main_v5_apply, val_main_v6_apply, val_main_v7_apply, val_main_v8_apply, val_main_v9_apply,
    i_raw3, i_sum3, i_npts, Ideal.ofBits_def, Ideal.ofBits_zero_f32, zero_add]
  rfl

/-- The first raw channel minus the cell centre's first coordinate. -/
theorem ref_xoff :
    val_main_v26 (F := Ideal) x0 x1 (ix3 p n (0 : Fin 1))
      = x0 (ix3 p n (⟨0, by omega⟩ : Fin 4))
          - ((((x1 (ix2 p (1 : Fin 3))).toInt : ℝ) : EReal) * Ideal.ofBits .f32 0x3E23D70A#32 + Ideal.ofBits .f32 0x3DA3D70A#32) := by
  simp only [val_main_v10_apply, val_main_v11_apply, val_main_v12_apply, val_main_cst_0_apply, val_main_v13_apply,
    val_main_v14_apply, val_main_cst_1_apply, val_main_v15_apply, val_main_v16_apply, val_main_v24_apply,
    val_main_v25_apply, val_main_v26_apply, i_x, i_cx]
  rfl

/-- The second raw channel minus the cell centre's second coordinate. -/
theorem ref_yoff :
    val_main_v29 (F := Ideal) x0 x1 (ix3 p n (0 : Fin 1))
      = x0 (ix3 p n (⟨1, by omega⟩ : Fin 4))
          - ((((x1 (ix2 p (2 : Fin 3))).toInt : ℝ) : EReal) * Ideal.ofBits .f32 0x3E23D70A#32 + Ideal.ofBits .f32 0xC21E6666#32) := by
  simp only [val_main_v17_apply, val_main_v18_apply, val_main_v19_apply, val_main_cst_2_apply, val_main_v20_apply,
    val_main_v21_apply, val_main_cst_3_apply, val_main_v22_apply, val_main_v23_apply, val_main_v27_apply,
    val_main_v28_apply, val_main_v29_apply, i_y, i_cy]
  rfl

/-- The mask of point `n`: one below the pillar's point count, zero from it on. -/
theorem ref_mask (k : Fin 9) :
    val_main_v39 (F := Ideal) x2 (ix3 p n k) = pmask (x2 (ix1 p)) n := by
  simp only [val_main_v39_apply, val_main_v38_apply, val_main_v37_apply, val_main_v36_apply, val_main_v35_apply,
    val_main_v34_apply, val_main_v33_apply, val_main_v32_apply, val_main_v31_apply, i_cnt]
  rfl

/-- The nine masked channels of point `n` of pillar `p`. -/
theorem ref_feat (k : Fin 9) :
    val_main_v40 (F := Ideal) x0 x1 x2 (ix3 p n k)
      = feat (fun q j => x0 (ix3 p q j))
          ((((x1 (ix2 p (1 : Fin 3))).toInt : ℝ) : EReal) * Ideal.ofBits .f32 0x3E23D70A#32 + Ideal.ofBits .f32 0x3DA3D70A#32)
          ((((x1 (ix2 p (2 : Fin 3))).toInt : ℝ) : EReal) * Ideal.ofBits .f32 0x3E23D70A#32 + Ideal.ofBits .f32 0xC21E6666#32)
          ((((x2 (ix1 p)).toInt : ℝ) : EReal)) n k * pmask (x2 (ix1 p)) n := by
  rw [val_main_v40_apply, ref_mask]
  unfold val_main_v30
  rw [cat9_apply]
  simp only [ref_centroid, ref_xoff, ref_yoff]
  rfl

end Channels

/-! ## One point's clipped normalised mix, and the pooled entry -/

section Pooled
variable (x0 : (⟨S40000x32x4, .f32⟩ : BufTy).Contents (Elt Ideal)) (x1 : (⟨S40000x3, .i32⟩ : BufTy).Contents (Elt Ideal))
  (x2 : (⟨S40000, .i32⟩ : BufTy).Contents (Elt Ideal)) (x3 : (⟨S64x9, .f32⟩ : BufTy).Contents (Elt Ideal))
  (x4 x5 x6 x7 : (⟨S64, .f32⟩ : BufTy).Contents (Elt Ideal)) (p : Fin 40000) (o : Fin 64)

/-- Point `n` of pillar `p` at output channel `o`: the nine masked channels mixed with weight row `o`, minus the
    mean, times `gamma / sqrt (var + eps)`, plus beta, clipped at zero. -/
theorem ref_point (n : Fin 32) :
    val_main_v55 (F := Ideal) x0 x1 x2 x3 x4 x5 x6 x7 (ix3 p n o)
      = max (((∑ k : Fin 9, val_main_v40 (F := Ideal) x0 x1 x2 (ix3 p n k) * x3 (ix2 o k)) - x6 (ix1 o))
              * Ideal.div (x4 (ix1 o)) (Ideal.sqrt (x7 (ix1 o) + Ideal.ofBits .f32 0x3A83126F#32)) + x5 (ix1 o))
          (Ideal.ofBits .f32 0x00000000#32) := by
  simp only [val_main_v41_apply, val_main_v42_apply, val_main_v43_apply, val_main_v44_apply, val_main_cst_4_apply,
    val_main_v45_apply, val_main_v46_apply, val_main_v47_apply, val_main_v48_apply, val_main_v49_apply,
    val_main_v50_apply, val_main_v51_apply, val_main_v52_apply, val_main_v53_apply, val_main_v54_apply,
    val_main_call0_cst_apply, val_main_call0_v0_apply, val_main_v55_apply, i_lhs, i_rhs, i_mean, i_scale, i_beta]
  rfl

/-- Entry `(p, o)` of the reference's pooled array is `rowR` of pillar `p`'s masked channels, weight row `o` and
    channel `o`'s normalisation. -/
theorem ref_pooled :
    val_main_v56 (F := Ideal) x0 x1 x2 x3 x4 x5 x6 x7 (ix2 p o)
      = rowR (fun n k => feat (fun q j => x0 (ix3 p q j))
                ((((x1 (ix2 p (1 : Fin 3))).toInt : ℝ) : EReal) * Ideal.ofBits .f32 0x3E23D70A#32 + Ideal.ofBits .f32 0x3DA3D70A#32)
                ((((x1 (ix2 p (2 : Fin 3))).toInt : ℝ) : EReal) * Ideal.ofBits .f32 0x3E23D70A#32 + Ideal.ofBits .f32 0xC21E6666#32)
                ((((x2 (ix1 p)).toInt : ℝ) : EReal)) n k * pmask (x2 (ix1 p)) n)
             (fun k => x3 (ix2 o k)) (x6 (ix1 o))
             (Ideal.div (x4 (ix1 o)) (Ideal.sqrt (x7 (ix1 o) + Ideal.ofBits .f32 0x3A83126F#32))) (x5 (ix1 o)) := by
  unfold val_main_v56
  refine (ref_max _ _ _ _ p o).trans ?_
  unfold rowR
  refine congrArg (Finset.fold max _ · _) ?_
  funext n
  rw [ref_point]
  simp only [ref_feat]

end Pooled

end Cert.Pillar
-- ==== Proof.Bridge.lean ====
/-
  The two pooled arrays are one array when the batch-norm parameters are real and the variance is not
  negative.

  Entry (p, o) on the kernel's side is rowK of pillar p's masked features with scale s = gamma / sqrt(var + eps)
  and shift beta - mean * s; on the reference's side it is rowR of the same features with mean, s and beta.
  The features agree once the count word read back from the float count is the count itself. With gamma,
  beta, mean, var real and var not negative, var + eps is a positive real, so s is real, and the affine law
  joins the two rows.
-/
import proofs.«180584_j4277787427173_2_alg».proof.Proof.KerRow
import proofs.«180584_j4277787427173_2_alg».proof.Proof.RefRow

noncomputable section

namespace Cert.Pillar

open Idealize.ShloMosaic Idealize.ShloMosaic.ValueIdx

theorem pool_eq (a0 : Cert.KernelIdeal.S40000x32x4.Idx → EReal) (a1 : Cert.KernelIdeal.S40000x3.Idx → BitVec 32)
    (a2 : Cert.KernelIdeal.S40000.Idx → BitVec 32) (a3 : Cert.KernelIdeal.S64x9.Idx → EReal)
    (a4 a5 a6 a7 : Cert.KernelIdeal.S64.Idx → EReal) (p : Fin 40000) (o : Fin 64)
    (hreal : (∃ r : ℝ, a4 (ix1 o) = (r : EReal)) ∧ (∃ r : ℝ, a5 (ix1 o) = (r : EReal)) ∧ (∃ r : ℝ, a6 (ix1 o) = (r : EReal))
      ∧ (∃ r : ℝ, a7 (ix1 o) = (r : EReal) ∧ 0 ≤ r)) :
    poolK a0 a1 a2 a3 a4 a5 a6 a7 p o
      = Cert.ReferenceIdeal.Read.val_main_v56 (F := Ideal) a0 a1 a2 a3 a4 a5 a6 a7 (ix2 p o) := by
  rw [ref_pooled]
  unfold poolK scaleOf cxOf cyOf
  obtain ⟨⟨g, hg⟩, ⟨b, hb⟩, ⟨mu, hm⟩, ⟨v, hv, hv0⟩⟩ := hreal
  obtain ⟨q, hq, he⟩ := eps_pos
  obtain ⟨s, hs⟩ := scale_real g v q hv0 hq
  rw [hg, hb, hm, hv, he, hs, fptosi_sitofp, rowK_eq_rowR]

end Cert.Pillar

end
-- ==== Proof.lean ====
/-
  The certificate: a pillar feature network (per-point channel offsets, a nine-to-sixty-four channel mix,
  an affine normalisation, a clip at zero and a maximum over each pillar's points) computed block by block
  by a kernel and scattered onto a canvas by the host, against the same network written with whole-array
  operations.

  The three frames are the generated ones (the reference's is its generated run with the result dropped).
  The idealisation rewrote nothing, so there is nothing to preserve. For the value claim both programs end
  with the same scatter, reshape and transpose of (cell coordinates, pooled array), so it is enough that the
  two pooled arrays agree entry by entry. The kernel's entry is read off its frame run block by block; the
  reference's off its generated run. They differ in the order of the nine-term channel sum (which does not
  matter on the extended reals) and in the spelling of the normalisation, x*s + (b - m*s) against
  (x - m)*s + b, which agree for every extended real x once s, m and b are real: that is where the
  precondition is used (finite normalisation parameters and a variance that is not negative make
  s = gamma / sqrt(var + eps) real).
-/
import proofs.«180584_j4277787427173_2_alg».proof.Defs
import proofs.«180584_j4277787427173_2_alg».proof.Proof.Gen.Kernel
import proofs.«180584_j4277787427173_2_alg».proof.Proof.Gen.Kernel.Skeleton
import proofs.«180584_j4277787427173_2_alg».proof.Proof.Gen.Kernel.Launch
import proofs.«180584_j4277787427173_2_alg».proof.Proof.Gen.Kernel.Points
import proofs.«180584_j4277787427173_2_alg».proof.Proof.Gen.Kernel.Frame
import proofs.«180584_j4277787427173_2_alg».proof.Proof.Gen.KernelIdeal
import proofs.«180584_j4277787427173_2_alg».proof.Proof.Gen.KernelIdeal.Skeleton
import proofs.«180584_j4277787427173_2_alg».proof.Proof.Gen.KernelIdeal.Launch
import proofs.«180584_j4277787427173_2_alg».proof.Proof.Gen.KernelIdeal.Points
import proofs.«180584_j4277787427173_2_alg».proof.Proof.Gen.KernelIdeal.Frame
import proofs.«180584_j4277787427173_2_alg».proof.Proof.Gen.ReferenceIdeal
import proofs.«180584_j4277787427173_2_alg».proof.Proof.Gen.ReferenceIdeal.Run
import proofs.«180584_j4277787427173_2_alg».proof.Proof.Gen.ReferenceIdeal.Read
import proofs.«180584_j4277787427173_2_alg».proof.Proof.Gen.Pre_finite_inputs
import proofs.«180584_j4277787427173_2_alg».proof.Proof.Tail
import proofs.«180584_j4277787427173_2_alg».proof.Proof.PreReal
import proofs.«180584_j4277787427173_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem Cert.Pillar

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the canvas of the shared cell coordinates and of pooled arrays that agree entry by entry. -/
theorem algebraic : Cert.algebraic_KernelIdeal_ReferenceIdeal := by
  intro m ρ m' ρ' hpre hagree
  refine ⟨_, Cert.Pillar.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Pillar.reference_res]
  obtain ⟨e0, e1, e2, e3, e4, e5, e6, e7⟩ := hagree c
  rw [e0, e1, e2, e3, e4, e5, e6, e7]
  refine congrArg (Cert.Pillar.canvas _) ?_
  rw [Cert.Pillar.kernel_pooled]
  funext i
  obtain ⟨p, o, rfl⟩ : ∃ (p : Fin 40000) (o : Fin 64), i = ix2 p o := ⟨i 0, i 1, eq_ix2 i⟩
  exact (Cert.Pillar.pool_eq _ _ _ _ _ _ _ _ p o (Cert.Pillar.bn_real _ _ _ _ _ _ _ _ (hpre c) o)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
